-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S800000 32) (main_arg2 : IVec S800000 32) (main_arg3 : FVec F S64x128 .f32) (main_arg4 : FVec F S64x128 .f32) (main_arg5 : FVec F S128 .f32) (main_arg6 : FVec F S128 .f32) (main_arg7 : FVec F S128 .f32) (main_arg8 : FVec F S128x64 .f32) (main_arg9 : FVec F S128x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S800000 : Shape := ⟨1, ![800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩
abbrev S800000x128 : Shape := ⟨2, ![800000, 128]⟩
abbrev S1x64 : Shape := ⟨2, ![1, 64]⟩

abbrev nBuf : Space → Nat
  | .hbm => 78
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S100000x64, .f32⟩
  | .hbm, ⟨22, _⟩ => ⟨S800000x1, .i32⟩
  | .hbm, ⟨23, _⟩ => ⟨S100000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S100000, .f32⟩
  | .hbm, ⟨28, _⟩ => ⟨S800000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S1x128, .f32⟩
  | .hbm, ⟨37, _⟩ => ⟨S100000x128, .f32⟩
  | .hbm, ⟨38, _⟩ => ⟨S1x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S100000x128, .f32⟩
  | .hbm, ⟨62, _⟩ => ⟨S800000x1, .i32⟩
  | .hbm, ⟨63, _⟩ => ⟨S100000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S100000, .f32⟩
  | .hbm, ⟨68, _⟩ => ⟨S800000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S1x64, .f32⟩
  | .hbm, ⟨77, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S1x128, .f32⟩
  | .local _ .vmem, ⟨10, _⟩ => ⟨S1x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S128x64, .f32⟩
  | .local _ .vmem, ⟨24, _⟩ => ⟨S128x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  shapeCasts_S10000x64_S10000x64 : S10000x64.ShapeCasts S10000x64
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  bcast_S_S1x128 : S_.BroadcastsInDim S1x128 (![] : Fin 0 → Fin S1x128.rank)
  shapeCasts_S10000x128_S10000x128 : S10000x128.ShapeCasts S10000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S10000x64_S64x128_S10000x128_1_0_0_1_n_n_wf : DotDims.WF S10000x64 S64x128 S10000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S800000 : Shape := ⟨1, ![800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S100000x64, .f32⟩
  | .hbm, ⟨22, _⟩ => ⟨S800000x1, .i32⟩
  | .hbm, ⟨23, _⟩ => ⟨S100000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S100000, .f32⟩
  | .hbm, ⟨28, _⟩ => ⟨S800000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x128, .f32⟩
  | .hbm, ⟨98, _⟩ => ⟨S_, .f32⟩
  | .hbm, ⟨99, _⟩ => ⟨S100000x128, .f32⟩
  | .hbm, ⟨100, _⟩ => ⟨S800000x1, .i32⟩
  | .hbm, ⟨101, _⟩ => ⟨S100000x128, .f32⟩
  | .hbm, ⟨102, _⟩ => ⟨S_, .f32⟩
  | .hbm, ⟨103, _⟩ => ⟨S800000, .f32⟩
  | .hbm, ⟨104, _⟩ => ⟨S_, .f32⟩
  | .hbm, ⟨105, _⟩ => ⟨S100000, .f32⟩
  | .hbm, ⟨106, _⟩ => ⟨S800000x1, .i32⟩
  | .hbm, ⟨107, _⟩ => ⟨S100000, .f32⟩
  | .hbm, ⟨108, _⟩ => ⟨S_, .f32⟩
  | .hbm, ⟨109, _⟩ => ⟨S100000, .f32⟩
  | .hbm, ⟨110, _⟩ => ⟨S100000, .f32⟩
  | .hbm, ⟨111, _⟩ => ⟨S100000x1, .f32⟩
  | .hbm, ⟨112, _⟩ => ⟨S100000x128, .f32⟩
  | .hbm, ⟨113, _⟩ => ⟨S100000x128, .f32⟩
  | .hbm, ⟨114, _⟩ => ⟨S100000x64, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_cst_3 : Ref sig .tc := ⟨.hbm, 64, rfl⟩
abbrev main_call0_v12 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_7 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_call1_cst : Ref sig .tc := ⟨.hbm, 86, rfl⟩
abbrev main_call1_v0 : Ref sig .tc := ⟨.hbm, 87, rfl⟩
abbrev main_v44 : Ref sig .tc := ⟨.hbm, 88, rfl⟩
abbrev main_c_8 : Ref sig .tc := ⟨.hbm, 89, rfl⟩
abbrev main_v45 : Ref sig .tc := ⟨.hbm, 90, rfl⟩
abbrev main_v46 : Ref sig .tc := ⟨.hbm, 91, rfl⟩
abbrev main_c_9 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_10 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_11 : Ref sig .tc := ⟨.hbm, 102, rfl⟩
abbrev main_v55 : Ref sig .tc := ⟨.hbm, 103, rfl⟩
abbrev main_cst_12 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_13 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S100000x64_S64x128_S100000x128_1_0_0_1_n_n_wf : DotDims.WF S100000x64 S64x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x64_S100000x64_1_0_0_1_n_n_wf : DotDims.WF S100000x128 S128x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its RESULT named. Every weakly fair execution of @main ends with each unscoped buffer at
  the contents the last region leaves (`W6`): the argument arrays as launched, and the result array `main_v50` at
  `W6 … main_v50`, which is region 2's output array after its last write-back (`result_eq_arr`). The run itself is the
  several-region launch over the frame's segments, read at one more buffer than the frame reads.
-/
import proofs.«175821_j90159953477680_1_alg».proof.Proof.FrameKernelIdealP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame's run with the result buffer read as well: `main_v50` ends at the last boundary's contents. -/
theorem run_value : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

/-- The result buffer is region 2's output array (window 5), so the last boundary holds there what that region's
    write-backs leave. -/
theorem result_eq_arr (c : Dev nD) :
    W6 m ρ c (Proc.devRef .tc main_v50) = (dat2 (V5 m ρ) c).arrAt 5 cfg2.N :=
  W6_arr m ρ c 5

end Cert.KernelIdeal.Hand

end
-- ==== Proof.RefRun.lean ====
/- The reference program's run, written out: the entry function as one straight line of host operations (the called
   functions' operations standing where they are called), its result named stage by stage as a function of the
   arguments' contents at the ideal instance, and the statement that every execution ends with the result buffer at that
   function of the launch contents and the arguments unchanged. -/
import proofs.«175821_j90159953477680_1_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program as one straight line of its 109 host operations, in execution order: the entry function's
    own eighty-four, with the twenty-two of the variance function (its last three those of the auxiliary select function it
    calls) standing where it is called, over that call's buffers, and the three of the rectifier likewise. -/
abbrev ops : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg1 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v2 (broadcastInDim S800000 ![] bcast_S_S800000 : (⟨S_, .i32⟩ : BufTy).Contents (Elt F) → (⟨S800000, .i32⟩ : BufTy).Contents (Elt F)),
    binary main_arg1 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v7 (broadcastInDim S100000x64 ![] bcast_S_S100000x64 : (⟨S_, .f32⟩ : BufTy).Contents (Elt F) → (⟨S100000x64, .f32⟩ : BufTy).Contents (Elt F)),
    unary main_arg2 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_1 (constant S_ .f32 0x3F800000#32),
    unary main_cst_1 main_v10 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v11 (broadcastInDim S100000 ![] bcast_S_S100000 : (⟨S_, .f32⟩ : BufTy).Contents (Elt F) → (⟨S100000, .f32⟩ : BufTy).Contents (Elt F)),
    unary main_arg2 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_3 (constant S_ .f32 0x3F800000#32),
    unary main_cst_3 main_v14 (broadcastInDim S100000 ![] bcast_S_S100000 : (⟨S_, .f32⟩ : BufTy).Contents (Elt F) → (⟨S100000, .f32⟩ : BufTy).Contents (Elt F)),
    binary main_v13 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (broadcastInDim S100000x1 ![0] bcast_S100000_S100000x1_0 : (⟨S100000, .f32⟩ : BufTy).Contents (Elt F) → (⟨S100000x1, .f32⟩ : BufTy).Contents (Elt F)),
    unary main_v16 main_v17 (broadcastInDim S100000x64 ![0, 1] bcast_S100000x1_S100000x64_0_1 : (⟨S100000x1, .f32⟩ : BufTy).Contents (Elt F) → (⟨S100000x64, .f32⟩ : BufTy).Contents (Elt F)),
    binary main_v9 main_v17 main_v18 (Host.divf : (⟨S100000x64, .f32⟩ : BufTy).Contents (Elt F) → (⟨S100000x64, .f32⟩ : BufTy).Contents (Elt F) → (⟨S100000x64, .f32⟩ : BufTy).Contents (Elt F)),
    binary main_arg0 main_arg3 main_v19 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v18 main_arg4 main_v20 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v19 main_v20 main_v21 (addf : (⟨S100000x128, .f32⟩ : BufTy).Contents (Elt F) → (⟨S100000x128, .f32⟩ : BufTy).Contents (Elt F) → (⟨S100000x128, .f32⟩ : BufTy).Contents (Elt F)),
    unary main_arg5 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v21 main_v23 main_v24 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x00000000#32),
    binary main_v24 main_cst_4 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_5 (constant S_ .f32 0x47C35000#32),
    unary main_cst_5 main_v26 (broadcastInDim S128 ![] bcast_S_S128 : (⟨S_, .f32⟩ : BufTy).Contents (Elt F) → (⟨S128, .f32⟩ : BufTy).Contents (Elt F)),
    binary main_v25 main_v26 main_v27 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call0.cst (constant S_ .f32 0x00000000#32),
    TRef.binary (.of main_v24) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v24) main_call0.v4 main_call0.v5 subf,
    TRef.binary main_call0.v5 main_call0.v5 main_call0.v6 mulf,
    TRef.unary (.of main_c_6) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v27 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v24 main_v30 main_v31 (subf : (⟨S100000x128, .f32⟩ : BufTy).Contents (Elt F) → (⟨S100000x128, .f32⟩ : BufTy).Contents (Elt F) → (⟨S100000x128, .f32⟩ : BufTy).Contents (Elt F)),
    unary main_arg6 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v33 main_v31 main_v34 (mulf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x3727C5AC#32),
    unary main_cst_7 main_v35 (broadcastInDim S128 ![] bcast_S_S128 : (⟨S_, .f32⟩ : BufTy).Contents (Elt F) → (⟨S128, .f32⟩ : BufTy).Contents (Elt F)),
    binary main_v28 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v34 main_v39 main_v40 (mulf : (⟨S100000x128, .f32⟩ : BufTy).Contents (Elt F) → (⟨S100000x128, .f32⟩ : BufTy).Contents (Elt F) → (⟨S100000x128, .f32⟩ : BufTy).Contents (Elt F)),
    unary main_arg7 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v43) main_call1.v0 main_call1.v1 maximumf,
    nullary main_c_8 (constantI S_ 32 0#32),
    unary main_c_8 main_v45 (broadcastInDim S800000 ![] bcast_S_S800000 : (⟨S_, .i32⟩ : BufTy).Contents (Elt F) → (⟨S800000, .i32⟩ : BufTy).Contents (Elt F)),
    binary main_arg1 main_v45 main_v46 (cmpi .slt : (⟨S800000, .i32⟩ : BufTy).Contents (Elt F) → (⟨S800000, .i32⟩ : BufTy).Contents (Elt F) → (⟨S800000, .i1⟩ : BufTy).Contents (Elt F)),
    nullary main_c_9 (constantI S_ 32 100000#32),
    unary main_c_9 main_v47 (broadcastInDim S800000 ![] bcast_S_S800000 : (⟨S_, .i32⟩ : BufTy).Contents (Elt F) → (⟨S800000, .i32⟩ : BufTy).Contents (Elt F)),
    binary main_arg1 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_arg1 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    binary main_v44 main_v50 main_v51 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_10 (constant S_ .f32 0x00000000#32),
    unary main_cst_10 main_v52 (broadcastInDim S100000x128 ![] bcast_S_S100000x128 : (⟨S_, .f32⟩ : BufTy).Contents (Elt F) → (⟨S100000x128, .f32⟩ : BufTy).Contents (Elt F)),
    unary main_arg2 main_v53 (broadcastInDim S800000x1 ![0] bcast_S800000_S800000x1_0 : (⟨S800000, .i32⟩ : BufTy).Contents (Elt F) → (⟨S800000x1, .i32⟩ : BufTy).Contents (Elt F)),
    ternary main_v52 main_v53 main_v51 main_v54 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_11 (constant S_ .f32 0x3F800000#32),
    unary main_cst_11 main_v55 (broadcastInDim S800000 ![] bcast_S_S800000 : (⟨S_, .f32⟩ : BufTy).Contents (Elt F) → (⟨S800000, .f32⟩ : BufTy).Contents (Elt F)),
    nullary main_cst_12 (constant S_ .f32 0x00000000#32),
    unary main_cst_12 main_v56 (broadcastInDim S100000 ![] bcast_S_S100000 : (⟨S_, .f32⟩ : BufTy).Contents (Elt F) → (⟨S100000, .f32⟩ : BufTy).Contents (Elt F)),
    unary main_arg2 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_13 (constant S_ .f32 0x3F800000#32),
    unary main_cst_13 main_v59 (broadcastInDim S100000 ![] bcast_S_S100000 : (⟨S_, .f32⟩ : BufTy).Contents (Elt F) → (⟨S100000, .f32⟩ : BufTy).Contents (Elt F)),
    binary main_v58 main_v59 main_v60 (maximumf : (⟨S100000, .f32⟩ : BufTy).Contents (Elt F) → (⟨S100000, .f32⟩ : BufTy).Contents (Elt F) → (⟨S100000, .f32⟩ : BufTy).Contents (Elt F)),
    unary main_v60 main_v61 (broadcastInDim S100000x1 ![0] bcast_S100000_S100000x1_0 : (⟨S100000, .f32⟩ : BufTy).Contents (Elt F) → (⟨S100000x1, .f32⟩ : BufTy).Contents (Elt F)),
    unary main_v61 main_v62 (broadcastInDim S100000x128 ![0, 1] bcast_S100000x1_S100000x128_0_1 : (⟨S100000x1, .f32⟩ : BufTy).Contents (Elt F) → (⟨S100000x128, .f32⟩ : BufTy).Contents (Elt F)),
    binary main_v54 main_v62 main_v63 (Host.divf : (⟨S100000x128, .f32⟩ : BufTy).Contents (Elt F) → (⟨S100000x128, .f32⟩ : BufTy).Contents (Elt F) → (⟨S100000x128, .f32⟩ : BufTy).Contents (Elt F)),
    binary main_v44 main_arg8 main_v64 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v63 main_arg9 main_v65 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v64 main_v65 main_v66 (addf : (⟨S100000x64, .f32⟩ : BufTy).Contents (Elt F) → (⟨S100000x64, .f32⟩ : BufTy).Contents (Elt F) → (⟨S100000x64, .f32⟩ : BufTy).Contents (Elt F)),
    unary main_arg10 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v66 main_v68 main_v69 (addf : (⟨S100000x64, .f32⟩ : BufTy).Contents (Elt F) → (⟨S100000x64, .f32⟩ : BufTy).Contents (Elt F) → (⟨S100000x64, .f32⟩ : BufTy).Contents (Elt F)) ]

-- the entry function is one hundred and nine statements bound in sequence
set_option maxRecDepth 4096 in
set_option maxHeartbeats 4000000 in
/-- The entry function is that straight line: the two windows in order, the called functions' definitions unfolded at
    their calls, and sequencing re-associated to the right. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the line touches buffers of the device's own table only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., binary_bufs_sub .., unary_bufs_sub .., unary_bufs_sub ..,
    binary_bufs_sub ..⟩

/-! ## The result, stage by stage

The value the program leaves in its result buffer, as a function of the eleven arguments' contents, at the ideal
instance of the float operations: each stage below is the composition of the printed operations of one stretch of the
program, applied to the contents the stretch reads. -/

/-- Mean aggregation over the incoming edges at feature width 64 (`%c … %18`): the source index wrapped once if
    negative, the source rows gathered, scatter-added at the destination rows into zeros, and divided by the number of
    incoming edges (a scatter-add of ones at the destinations), that count raised to at least one. -/
noncomputable def meanAgg64 (x : (⟨S100000x64, .f32⟩ : BufTy).Contents (Elt Ideal)) (src dst : (⟨S800000, .i32⟩ : BufTy).Contents (Elt Ideal)) :
    (⟨S100000x64, .f32⟩ : BufTy).Contents (Elt Ideal) :=
  Host.divf
    (Host.scatterAdd scatter_S100000x64_S800000x1_S800000x64_1_0_0_1
      (broadcastInDim S100000x64 ![] bcast_S_S100000x64 (constant (F := Ideal) S_ .f32 0x00000000#32))
      (broadcastInDim S800000x1 ![0] bcast_S800000_S800000x1_0 dst)
      (Host.gather gather_S100000x64_S800000x1_S800000x64_1_0_n_n_0_1_164 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 100000#32))) src))))
    (broadcastInDim S100000x64 ![0, 1] bcast_S100000x1_S100000x64_0_1
      (broadcastInDim S100000x1 ![0] bcast_S100000_S100000x1_0
        (maximumf
          (Host.scatterAdd scatter_S100000_S800000x1_S800000_n_0_0_1
            (broadcastInDim S100000 ![] bcast_S_S100000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S100000 ![] bcast_S_S100000 (constant (F := Ideal) S_ .f32 0x3F800000#32)))))

/-- The first layer's affine map (`%19 … %24`): the features times the self weights, plus the aggregate times the
    neighbour weights, plus the bias broadcast along the rows. -/
noncomputable def lin1 (x agg : (⟨S100000x64, .f32⟩ : BufTy).Contents (Elt Ideal)) (ws wn : (⟨S64x128, .f32⟩ : BufTy).Contents (Elt Ideal)) (b : (⟨S128, .f32⟩ : BufTy).Contents (Elt Ideal)) :
    (⟨S100000x128, .f32⟩ : BufTy).Contents (Elt Ideal) :=
  addf
    (addf (Host.dotGeneral (F := Ideal) (φ₁ := .f32) (φ₂ := .f32) dot_S100000x64_S64x128_S100000x128_1_0_0_1_n_n none x ws)
      (Host.dotGeneral (F := Ideal) (φ₁ := .f32) (φ₂ := .f32) dot_S100000x64_S64x128_S100000x128_1_0_0_1_n_n none agg wn))
    (broadcastInDim S100000x128 ![0, 1] bcast_S1x128_S100000x128_0_1 (broadcastInDim S1x128 ![1] bcast_S128_S1x128_1 b))

/-- The column means (`%cst_4 … %27`): the sum down the rows from zero, divided by the row count 100000. -/
noncomputable def mean1 (h : (⟨S100000x128, .f32⟩ : BufTy).Contents (Elt Ideal)) : (⟨S128, .f32⟩ : BufTy).Contents (Elt Ideal) :=
  Host.divf
    (Host.reduceAdd h (constant (F := Ideal) S_ .f32 0x00000000#32) reducesTo_S100000x128_S128_d0 h_S_)
    (broadcastInDim S128 ![] bcast_S_S128 (constant (F := Ideal) S_ .f32 0x47C35000#32))

/-- The column variances (the call `%28` of the variance function at zero degrees of freedom removed, its auxiliary
    select function inlined): the column means recomputed, the squared deviations summed down the rows from zero and divided by
    `100000 - 0`, kept where that divisor is positive and replaced by the not-a-number constant elsewhere. -/
noncomputable def var1 (h : (⟨S100000x128, .f32⟩ : BufTy).Contents (Elt Ideal)) : (⟨S128, .f32⟩ : BufTy).Contents (Elt Ideal) :=
  select
    (broadcastInDim S128 ![] bcast_S_S128
      (cmpf .ogt
        (subf (constant (F := Ideal) S_ .f32 0x47C35000#32) (sitofp .f32 (constantI S_ 32 0#32)))
        (constant (F := Ideal) S_ .f32 0x00000000#32)))
    (Host.divf
      (Host.reduceAdd
        (mulf
          (subf h (broadcastInDim S100000x128 ![0, 1] bcast_S1x128_S100000x128_0_1
            (Host.divf
              (broadcastInDim S1x128 ![1] bcast_S128_S1x128_1
                (Host.reduceAdd h (constant (F := Ideal) S_ .f32 0x00000000#32) reducesTo_S100000x128_S128_d0 h_S_))
              (broadcastInDim S1x128 ![] bcast_S_S1x128 (constant (F := Ideal) S_ .f32 0x47C35000#32)))))
          (subf h (broadcastInDim S100000x128 ![0, 1] bcast_S1x128_S100000x128_0_1
            (Host.divf
              (broadcastInDim S1x128 ![1] bcast_S128_S1x128_1
                (Host.reduceAdd h (constant (F := Ideal) S_ .f32 0x00000000#32) reducesTo_S100000x128_S128_d0 h_S_))
              (broadcastInDim S1x128 ![] bcast_S_S1x128 (constant (F := Ideal) S_ .f32 0x47C35000#32))))))
        (constant (F := Ideal) S_ .f32 0x00000000#32) reducesTo_S100000x128_S128_d0 h_S_)
      (broadcastInDim S128 ![] bcast_S_S128
        (subf (constant (F := Ideal) S_ .f32 0x47C35000#32) (sitofp .f32 (constantI S_ 32 0#32)))))
    (broadcastInDim S128 ![] bcast_S_S128 (id (constant (F := Ideal) S_ .f32 0x7FC00000#32)))

/-- Batch normalisation and the rectifier (`%29 … %44`, the rectifier function inlined): the scale times the
    deviation from the mean, times the reciprocal square root of the variance plus the small constant, plus the shift,
    then the maximum with zero. -/
noncomputable def bnrelu (h : (⟨S100000x128, .f32⟩ : BufTy).Contents (Elt Ideal)) (mu var gamma beta : (⟨S128, .f32⟩ : BufTy).Contents (Elt Ideal)) :
    (⟨S100000x128, .f32⟩ : BufTy).Contents (Elt Ideal) :=
  maximumf
    (addf
      (mulf
        (mulf
          (broadcastInDim S100000x128 ![0, 1] bcast_S1x128_S100000x128_0_1 (broadcastInDim S1x128 ![1] bcast_S128_S1x128_1 gamma))
          (subf h (broadcastInDim S100000x128 ![0, 1] bcast_S1x128_S100000x128_0_1 (broadcastInDim S1x128 ![1] bcast_S128_S1x128_1 mu))))
        (broadcastInDim S100000x128 ![0, 1] bcast_S1x128_S100000x128_0_1
          (broadcastInDim S1x128 ![1] bcast_S128_S1x128_1
            (Host.rsqrt (addf var (broadcastInDim S128 ![] bcast_S_S128 (constant (F := Ideal) S_ .f32 0x3727C5AC#32)))))))
      (broadcastInDim S100000x128 ![0, 1] bcast_S1x128_S100000x128_0_1 (broadcastInDim S1x128 ![1] bcast_S128_S1x128_1 beta)))
    (broadcastInDim S100000x128 ![] bcast_S_S100000x128 (constant (F := Ideal) S_ .f32 0x00000000#32))

/-- Mean aggregation over the incoming edges at feature width 128 (`%c_8 … %63`): as `meanAgg64`, on the hidden
    features. -/
noncomputable def meanAgg128 (h1 : (⟨S100000x128, .f32⟩ : BufTy).Contents (Elt Ideal)) (src dst : (⟨S800000, .i32⟩ : BufTy).Contents (Elt Ideal)) :
    (⟨S100000x128, .f32⟩ : BufTy).Contents (Elt Ideal) :=
  Host.divf
    (Host.scatterAdd scatter_S100000x128_S800000x1_S800000x128_1_0_0_1
      (broadcastInDim S100000x128 ![] bcast_S_S100000x128 (constant (F := Ideal) S_ .f32 0x00000000#32))
      (broadcastInDim S800000x1 ![0] bcast_S800000_S800000x1_0 dst)
      (Host.gather gather_S100000x128_S800000x1_S800000x128_1_0_n_n_0_1_1128 h1
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S100000 ![] bcast_S_S100000 (constant (F := Ideal) S_ .f32 0x3F800000#32)))))

/-- The second layer's affine map (`%64 … %69`): as `lin1`, from width 128 to width 64. -/
noncomputable def lin2 (h1 agg : (⟨S100000x128, .f32⟩ : BufTy).Contents (Elt Ideal)) (ws wn : (⟨S128x64, .f32⟩ : BufTy).Contents (Elt Ideal)) (b : (⟨S64, .f32⟩ : BufTy).Contents (Elt Ideal)) :
    (⟨S100000x64, .f32⟩ : BufTy).Contents (Elt Ideal) :=
  addf
    (addf (Host.dotGeneral (F := Ideal) (φ₁ := .f32) (φ₂ := .f32) dot_S100000x128_S128x64_S100000x64_1_0_0_1_n_n none h1 ws)
      (Host.dotGeneral (F := Ideal) (φ₁ := .f32) (φ₂ := .f32) dot_S100000x128_S128x64_S100000x64_1_0_0_1_n_n none agg wn))
    (broadcastInDim S100000x64 ![0, 1] bcast_S1x64_S100000x64_0_1 (broadcastInDim S1x64 ![1] bcast_S64_S1x64_1 b))

/-- The program's result as a function of its eleven arguments, in the entry function's order: the second layer of
    the hidden features `h1`, themselves the normalised and rectified first layer `h`. -/
noncomputable def out (x : (⟨S100000x64, .f32⟩ : BufTy).Contents (Elt Ideal)) (src dst : (⟨S800000, .i32⟩ : BufTy).Contents (Elt Ideal))
    (ws1 wn1 : (⟨S64x128, .f32⟩ : BufTy).Contents (Elt Ideal)) (b1 gamma beta : (⟨S128, .f32⟩ : BufTy).Contents (Elt Ideal))
    (ws2 wn2 : (⟨S128x64, .f32⟩ : BufTy).Contents (Elt Ideal)) (b2 : (⟨S64, .f32⟩ : BufTy).Contents (Elt Ideal)) : (⟨S100000x64, .f32⟩ : BufTy).Contents (Elt Ideal) :=
  let h := lin1 x (meanAgg64 x src dst) ws1 wn1 b1
  let h1 := bnrelu h (mean1 h) (var1 h) gamma beta
  lin2 h1 (meanAgg128 h1 src dst) ws2 wn2 b2

set_option maxRecDepth 8192 in
set_option maxHeartbeats 40000000 in
/-- At the ideal instance, on every device, from any memory with zero counters: every weakly fair execution of the
    program terminates with the result buffer at `out` of the arguments' launch contents, and the eleven arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v69) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))) :=
  (θ_run (defs (F := Ideal)) _ _).mono (fun _ h c => ⟨(h c main_v69).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp),
      (h c main_arg10).trans (by after_results_simp)⟩)
    (run_seq scopedRefs_eq scopedSems_eq (defs (F := Ideal)) (main (F := Ideal)) (fun _ => ops (F := Ideal)) main_eq (fun _ => ops_sub) m ρ)

end Cert.ReferenceIdeal.RefRun

end
-- ==== Proof.Spec.lean ====
/-
  What both programs compute, stated once over plain index types (no program's shapes): a mean-aggregation layer's affine
  map at a node and an output feature, and the two column statistics the batch normalisation is built from. A node's row
  is `r`, an input feature `k`, an output feature `j`; all values are extended reals.
-/
import Idealize.ShloMosaic.PureOps.Ideal.Laws

noncomputable section

open scoped BigOperators

namespace Cert.Spec

/-- One layer's affine map: the node's own features through `ws`, its neighbourhood mean `a` through `wn`, plus the bias:
    `∑ₖ x r k · ws k j + ∑ₖ a r k · wn k j + b j`. -/
def lin {N K M : ℕ} (x a : Fin N → Fin K → EReal) (ws wn : Fin K → Fin M → EReal) (b : Fin M → EReal)
    (r : Fin N) (j : Fin M) : EReal :=
  (∑ k : Fin K, x r k * ws k j) + (∑ k : Fin K, a r k * wn k j) + b j

/-- The sum of column `j` over all rows. -/
def colSum {N M : ℕ} (h : Fin N → Fin M → EReal) (j : Fin M) : EReal := ∑ r : Fin N, h r j

/-- The sum of the squares of column `j` over all rows. -/
def colSumSq {N M : ℕ} (h : Fin N → Fin M → EReal) (j : Fin M) : EReal := ∑ r : Fin N, h r j * h r j

/-- Row `p` of block `t` when 100000 rows are cut into ten blocks of 10000. -/
def blockRow (t : Fin 10) (p : Fin 10000) : Fin 100000 := ⟨10000 * t.val + p.val, by have := t.isLt; have := p.isLt; omega⟩

end Cert.Spec

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«175821_j90159953477680_1_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.Stretch.lean ====
/-
  The host operations between the regions, read. Before region 0 the host forms the first layer's neighbourhood means
  (`meanAgg64` of the node features and the two edge lists) and lays the bias out as a row; between regions 0 and 1 it
  turns the two accumulated column sums into the mean `S₁/100000` and the variance `S₂/100000 - mean²`, and lays the scale and
  the shift out as rows; before region 2 it forms the second layer's neighbourhood means (`meanAgg128` of region 1's result)
  and lays the second bias out as a row. Every other buffer a region reads passes through a stretch unchanged, and every
  argument array is, at every boundary, what the launch memory holds.
-/
import proofs.«175821_j90159953477680_1_alg».proof.Proof.FrameKernelIdealP
import proofs.«175821_j90159953477680_1_alg».proof.Proof.Spec
import proofs.«175821_j90159953477680_1_alg».proof.Proof.LibRowReduceProducts
import proofs.«175821_j90159953477680_1_alg».proof.Proof.KernelRun
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Stretch

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg)

/-- The mean of a node's in-neighbours' feature rows, as the host computes it: the rows of `x` gathered at the edges' sources
    (a negative source index wrapped by the node count), summed into the edges' destinations, and divided by the in-degree
    or by `1` where a node has no in-edge. Width 64. -/
def meanAgg64 (x : (⟨S100000x64, .f32⟩ : BufTy).Contents (Elt Ideal)) (src dst : (⟨S800000, .i32⟩ : BufTy).Contents (Elt Ideal)) :
    (⟨S100000x64, .f32⟩ : BufTy).Contents (Elt Ideal) :=
  Host.divf (F := Ideal)
    (Host.scatterAdd (F := Ideal) scatter_S100000x64_S800000x1_S800000x64_1_0_0_1
      (broadcastInDim S100000x64 ![] bcast_S_S100000x64 (constant (F := Ideal) S_ .f32 0x00000000#32))
      (broadcastInDim S800000x1 ![0] bcast_S800000_S800000x1_0 dst)
      (Host.gather gather_S100000x64_S800000x1_S800000x64_1_0_n_n_0_1_164 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 100000#32))) src))))
    (broadcastInDim S100000x64 ![0, 1] bcast_S100000x1_S100000x64_0_1
      (broadcastInDim S100000x1 ![0] bcast_S100000_S100000x1_0
        (maximumf (F := Ideal)
          (Host.scatterAdd (F := Ideal) scatter_S100000_S800000x1_S800000_n_0_0_1
            (broadcastInDim S100000 ![] bcast_S_S100000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S100000 ![] bcast_S_S100000 (constant (F := Ideal) S_ .f32 0x3F800000#32)))))

/-- The mean of a node's in-neighbours' feature rows, as the host computes it: the rows of `x` gathered at the edges' sources
    (a negative source index wrapped by the node count), summed into the edges' destinations, and divided by the in-degree
    or by `1` where a node has no in-edge. Width 128. -/
def meanAgg128 (x : (⟨S100000x128, .f32⟩ : BufTy).Contents (Elt Ideal)) (src dst : (⟨S800000, .i32⟩ : BufTy).Contents (Elt Ideal)) :
    (⟨S100000x128, .f32⟩ : BufTy).Contents (Elt Ideal) :=
  Host.divf (F := Ideal)
    (Host.scatterAdd (F := Ideal) scatter_S100000x128_S800000x1_S800000x128_1_0_0_1
      (broadcastInDim S100000x128 ![] bcast_S_S100000x128 (constant (F := Ideal) S_ .f32 0x00000000#32))
      (broadcastInDim S800000x1 ![0] bcast_S800000_S800000x1_0 dst)
      (Host.gather gather_S100000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 100000#32))) src))))
    (broadcastInDim S100000x128 ![0, 1] bcast_S100000x1_S100000x128_0_1
      (broadcastInDim S100000x1 ![0] bcast_S100000_S100000x1_0
        (maximumf (F := Ideal)
          (Host.scatterAdd (F := Ideal) scatter_S100000_S800000x1_S800000_n_0_0_1
            (broadcastInDim S100000 ![] bcast_S_S100000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S100000 ![] bcast_S_S100000 (constant (F := Ideal) S_ .f32 0x3F800000#32)))))

/-! ## The argument arrays at the boundaries -/

theorem arg0_at1 (c : Dev nD) : W1 (F := Ideal) m ρ c (Proc.devRef .tc main_arg0) = m ((c : Thread nD τ).loc main_arg0) :=
  calc W1 (F := Ideal) m ρ c (Proc.devRef .tc main_arg0)
    _ = W0 m ρ c (Proc.devRef .tc main_arg0) := by
          show StableHlo.after hostOps0 (W0 m ρ c) (Proc.devRef .tc main_arg0) = _
          after_results
    _ = m ((c : Thread nD τ).loc main_arg0) := rfl

theorem arg1_at1 (c : Dev nD) : W1 (F := Ideal) m ρ c (Proc.devRef .tc main_arg1) = m ((c : Thread nD τ).loc main_arg1) :=
  calc W1 (F := Ideal) m ρ c (Proc.devRef .tc main_arg1)
    _ = W0 m ρ c (Proc.devRef .tc main_arg1) := by
          show StableHlo.after hostOps0 (W0 m ρ c) (Proc.devRef .tc main_arg1) = _
          after_results
    _ = m ((c : Thread nD τ).loc main_arg1) := rfl

theorem arg2_at1 (c : Dev nD) : W1 (F := Ideal) m ρ c (Proc.devRef .tc main_arg2) = m ((c : Thread nD τ).loc main_arg2) :=
  calc W1 (F := Ideal) m ρ c (Proc.devRef .tc main_arg2)
    _ = W0 m ρ c (Proc.devRef .tc main_arg2) := by
          show StableHlo.after hostOps0 (W0 m ρ c) (Proc.devRef .tc main_arg2) = _
          after_results
    _ = m ((c : Thread nD τ).loc main_arg2) := rfl

theorem arg3_at1 (c : Dev nD) : W1 (F := Ideal) m ρ c (Proc.devRef .tc main_arg3) = m ((c : Thread nD τ).loc main_arg3) :=
  calc W1 (F := Ideal) m ρ c (Proc.devRef .tc main_arg3)
    _ = W0 m ρ c (Proc.devRef .tc main_arg3) := by
          show StableHlo.after hostOps0 (W0 m ρ c) (Proc.devRef .tc main_arg3) = _
          after_results
    _ = m ((c : Thread nD τ).loc main_arg3) := rfl

theorem arg4_at1 (c : Dev nD) : W1 (F := Ideal) m ρ c (Proc.devRef .tc main_arg4) = m ((c : Thread nD τ).loc main_arg4) :=
  calc W1 (F := Ideal) m ρ c (Proc.devRef .tc main_arg4)
    _ = W0 m ρ c (Proc.devRef .tc main_arg4) := by
          show StableHlo.after hostOps0 (W0 m ρ c) (Proc.devRef .tc main_arg4) = _
          after_results
    _ = m ((c : Thread nD τ).loc main_arg4) := rfl

theorem arg5_at1 (c : Dev nD) : W1 (F := Ideal) m ρ c (Proc.devRef .tc main_arg5) = m ((c : Thread nD τ).loc main_arg5) :=
  calc W1 (F := Ideal) m ρ c (Proc.devRef .tc main_arg5)
    _ = W0 m ρ c (Proc.devRef .tc main_arg5) := by
          show StableHlo.after hostOps0 (W0 m ρ c) (Proc.devRef .tc main_arg5) = _
          after_results
    _ = m ((c : Thread nD τ).loc main_arg5) := rfl

theorem arg6_at2 (c : Dev nD) : W2 (F := Ideal) m ρ c (Proc.devRef .tc main_arg6) = m ((c : Thread nD τ).loc main_arg6) :=
  calc W2 (F := Ideal) m ρ c (Proc.devRef .tc main_arg6)
    _ = W1 m ρ c (Proc.devRef .tc main_arg6) := W2_of_ne m ρ c main_arg6 (by decide)
    _ = W0 m ρ c (Proc.devRef .tc main_arg6) := by
          show StableHlo.after hostOps0 (W0 m ρ c) (Proc.devRef .tc main_arg6) = _
          after_results
    _ = m ((c : Thread nD τ).loc main_arg6) := rfl

theorem arg7_at2 (c : Dev nD) : W2 (F := Ideal) m ρ c (Proc.devRef .tc main_arg7) = m ((c : Thread nD τ).loc main_arg7) :=
  calc W2 (F := Ideal) m ρ c (Proc.devRef .tc main_arg7)
    _ = W1 m ρ c (Proc.devRef .tc main_arg7) := W2_of_ne m ρ c main_arg7 (by decide)
    _ = W0 m ρ c (Proc.devRef .tc main_arg7) := by
          show StableHlo.after hostOps0 (W0 m ρ c) (Proc.devRef .tc main_arg7) = _
          after_results
    _ = m ((c : Thread nD τ).loc main_arg7) := rfl

theorem arg1_at4 (c : Dev nD) : W4 (F := Ideal) m ρ c (Proc.devRef .tc main_arg1) = m ((c : Thread nD τ).loc main_arg1) :=
  calc W4 (F := Ideal) m ρ c (Proc.devRef .tc main_arg1)
    _ = W3 m ρ c (Proc.devRef .tc main_arg1) := W4_of_ne m ρ c main_arg1 (by decide)
    _ = W2 m ρ c (Proc.devRef .tc main_arg1) := by
          show StableHlo.after hostOps1 (W2 m ρ c) (Proc.devRef .tc main_arg1) = _
          after_results
    _ = W1 m ρ c (Proc.devRef .tc main_arg1) := W2_of_ne m ρ c main_arg1 (by decide)
    _ = W0 m ρ c (Proc.devRef .tc main_arg1) := by
          show StableHlo.after hostOps0 (W0 m ρ c) (Proc.devRef .tc main_arg1) = _
          after_results
    _ = m ((c : Thread nD τ).loc main_arg1) := rfl

theorem arg2_at4 (c : Dev nD) : W4 (F := Ideal) m ρ c (Proc.devRef .tc main_arg2) = m ((c : Thread nD τ).loc main_arg2) :=
  calc W4 (F := Ideal) m ρ c (Proc.devRef .tc main_arg2)
    _ = W3 m ρ c (Proc.devRef .tc main_arg2) := W4_of_ne m ρ c main_arg2 (by decide)
    _ = W2 m ρ c (Proc.devRef .tc main_arg2) := by
          show StableHlo.after hostOps1 (W2 m ρ c) (Proc.devRef .tc main_arg2) = _
          after_results
    _ = W1 m ρ c (Proc.devRef .tc main_arg2) := W2_of_ne m ρ c main_arg2 (by decide)
    _ = W0 m ρ c (Proc.devRef .tc main_arg2) := by
          show StableHlo.after hostOps0 (W0 m ρ c) (Proc.devRef .tc main_arg2) = _
          after_results
    _ = m ((c : Thread nD τ).loc main_arg2) := rfl

theorem arg8_at4 (c : Dev nD) : W4 (F := Ideal) m ρ c (Proc.devRef .tc main_arg8) = m ((c : Thread nD τ).loc main_arg8) :=
  calc W4 (F := Ideal) m ρ c (Proc.devRef .tc main_arg8)
    _ = W3 m ρ c (Proc.devRef .tc main_arg8) := W4_of_ne m ρ c main_arg8 (by decide)
    _ = W2 m ρ c (Proc.devRef .tc main_arg8) := by
          show StableHlo.after hostOps1 (W2 m ρ c) (Proc.devRef .tc main_arg8) = _
          after_results
    _ = W1 m ρ c (Proc.devRef .tc main_arg8) := W2_of_ne m ρ c main_arg8 (by decide)
    _ = W0 m ρ c (Proc.devRef .tc main_arg8) := by
          show StableHlo.after hostOps0 (W0 m ρ c) (Proc.devRef .tc main_arg8) = _
          after_results
    _ = m ((c : Thread nD τ).loc main_arg8) := rfl

theorem arg9_at4 (c : Dev nD) : W4 (F := Ideal) m ρ c (Proc.devRef .tc main_arg9) = m ((c : Thread nD τ).loc main_arg9) :=
  calc W4 (F := Ideal) m ρ c (Proc.devRef .tc main_arg9)
    _ = W3 m ρ c (Proc.devRef .tc main_arg9) := W4_of_ne m ρ c main_arg9 (by decide)
    _ = W2 m ρ c (Proc.devRef .tc main_arg9) := by
          show StableHlo.after hostOps1 (W2 m ρ c) (Proc.devRef .tc main_arg9) = _
          after_results
    _ = W1 m ρ c (Proc.devRef .tc main_arg9) := W2_of_ne m ρ c main_arg9 (by decide)
    _ = W0 m ρ c (Proc.devRef .tc main_arg9) := by
          show StableHlo.after hostOps0 (W0 m ρ c) (Proc.devRef .tc main_arg9) = _
          after_results
    _ = m ((c : Thread nD τ).loc main_arg9) := rfl

theorem arg10_at4 (c : Dev nD) : W4 (F := Ideal) m ρ c (Proc.devRef .tc main_arg10) = m ((c : Thread nD τ).loc main_arg10) :=
  calc W4 (F := Ideal) m ρ c (Proc.devRef .tc main_arg10)
    _ = W3 m ρ c (Proc.devRef .tc main_arg10) := W4_of_ne m ρ c main_arg10 (by decide)
    _ = W2 m ρ c (Proc.devRef .tc main_arg10) := by
          show StableHlo.after hostOps1 (W2 m ρ c) (Proc.devRef .tc main_arg10) = _
          after_results
    _ = W1 m ρ c (Proc.devRef .tc main_arg10) := W2_of_ne m ρ c main_arg10 (by decide)
    _ = W0 m ρ c (Proc.devRef .tc main_arg10) := by
          show StableHlo.after hostOps0 (W0 m ρ c) (Proc.devRef .tc main_arg10) = _
          after_results
    _ = m ((c : Thread nD τ).loc main_arg10) := rfl

/-! ## Before region 0 -/

set_option maxHeartbeats 4000000 in
theorem agg1_eq (c : Dev nD) :
    W1 (F := Ideal) m ρ c (Proc.devRef .tc main_v18)
      = meanAgg64 (m ((c : Thread nD τ).loc main_arg0)) (m ((c : Thread nD τ).loc main_arg1)) (m ((c : Thread nD τ).loc main_arg2)) := by
  show StableHlo.after hostOps0 (W0 m ρ c) (Proc.devRef .tc main_v18) = _
  after_results
  unfold meanAgg64
  rfl

theorem b1row_eq (c : Dev nD) :
    W1 (F := Ideal) m ρ c (Proc.devRef .tc main_v19) = shapeCast S1x128 (m ((c : Thread nD τ).loc main_arg5)) shapeCasts_S128_S1x128 := by
  show StableHlo.after hostOps0 (W0 m ρ c) (Proc.devRef .tc main_v19) = _
  after_results
  rfl

/-! ## Between regions 0 and 1 -/

theorem h_pass (c : Dev nD) : W3 (F := Ideal) m ρ c (Proc.devRef .tc main_v20_0) = W2 m ρ c (Proc.devRef .tc main_v20_0) := by
  show StableHlo.after hostOps1 (W2 m ρ c) (Proc.devRef .tc main_v20_0) = _
  after_results

theorem mean_eq (c : Dev nD) :
    W3 (F := Ideal) m ρ c (Proc.devRef .tc main_v22)
      = Host.divf (F := Ideal) (W2 m ρ c (Proc.devRef .tc main_v20_1)) (broadcastInDim S1x128 ![] bcast_S_S1x128 (constant (F := Ideal) S_ .f32 0x47C35000#32)) := by
  show StableHlo.after hostOps1 (W2 m ρ c) (Proc.devRef .tc main_v22) = _
  after_results

theorem var_eq (c : Dev nD) :
    W3 (F := Ideal) m ρ c (Proc.devRef .tc main_v26)
      = subf (F := Ideal) (Host.divf (F := Ideal) (W2 m ρ c (Proc.devRef .tc main_v20_2)) (broadcastInDim S1x128 ![] bcast_S_S1x128 (constant (F := Ideal) S_ .f32 0x47C35000#32)))
          (mulf (F := Ideal) (W3 m ρ c (Proc.devRef .tc main_v22)) (W3 m ρ c (Proc.devRef .tc main_v22))) := by
  rw [mean_eq]
  show StableHlo.after hostOps1 (W2 m ρ c) (Proc.devRef .tc main_v26) = _
  after_results

theorem gammarow_eq (c : Dev nD) :
    W3 (F := Ideal) m ρ c (Proc.devRef .tc main_v27) = shapeCast S1x128 (m ((c : Thread nD τ).loc main_arg6)) shapeCasts_S128_S1x128 := by
  rw [← arg6_at2 m ρ c]
  show StableHlo.after hostOps1 (W2 m ρ c) (Proc.devRef .tc main_v27) = _
  after_results
  rfl

theorem betarow_eq (c : Dev nD) :
    W3 (F := Ideal) m ρ c (Proc.devRef .tc main_v28) = shapeCast S1x128 (m ((c : Thread nD τ).loc main_arg7)) shapeCasts_S128_S1x128 := by
  rw [← arg7_at2 m ρ c]
  show StableHlo.after hostOps1 (W2 m ρ c) (Proc.devRef .tc main_v28) = _
  after_results
  rfl

/-! ## Between regions 1 and 2 -/

theorem h1_pass (c : Dev nD) : W5 (F := Ideal) m ρ c (Proc.devRef .tc main_v29) = W4 m ρ c (Proc.devRef .tc main_v29) := by
  show StableHlo.after hostOps2 (W4 m ρ c) (Proc.devRef .tc main_v29) = _
  after_results

set_option maxHeartbeats 4000000 in
theorem agg2_eq (c : Dev nD) :
    W5 (F := Ideal) m ρ c (Proc.devRef .tc main_v48)
      = meanAgg128 (W4 m ρ c (Proc.devRef .tc main_v29)) (m ((c : Thread nD τ).loc main_arg1)) (m ((c : Thread nD τ).loc main_arg2)) := by
  rw [← arg1_at4 m ρ c, ← arg2_at4 m ρ c]
  show StableHlo.after hostOps2 (W4 m ρ c) (Proc.devRef .tc main_v48) = _
  after_results
  unfold meanAgg128
  rfl

theorem b2row_eq (c : Dev nD) :
    W5 (F := Ideal) m ρ c (Proc.devRef .tc main_v49) = shapeCast S1x64 (m ((c : Thread nD τ).loc main_arg10)) shapeCasts_S64_S1x64 := by
  rw [← arg10_at4 m ρ c]
  show StableHlo.after hostOps2 (W4 m ρ c) (Proc.devRef .tc main_v49) = _
  after_results
  rfl

theorem ws2_eq (c : Dev nD) : W5 (F := Ideal) m ρ c (Proc.devRef .tc main_arg8) = m ((c : Thread nD τ).loc main_arg8) := by
  rw [← arg8_at4 m ρ c]
  show StableHlo.after hostOps2 (W4 m ρ c) (Proc.devRef .tc main_arg8) = _
  after_results

theorem wn2_eq (c : Dev nD) : W5 (F := Ideal) m ρ c (Proc.devRef .tc main_arg9) = m ((c : Thread nD τ).loc main_arg9) := by
  rw [← arg9_at4 m ρ c]
  show StableHlo.after hostOps2 (W4 m ρ c) (Proc.devRef .tc main_arg9) = _
  after_results

end Cert.KernelIdeal.Stretch

end
-- ==== Proof.Region0A.lean ====
/-
  What one grid point's body leaves in each of the three output staging buffers, in each of its two control cases, as
  the pure arithmetic of the blocks it read: the affine map of the node block in output 5, and in outputs 6 and 7 the
  previous contents (zero at the first point) plus the column sums of that block and of its squares.
-/
import proofs.«175821_j90159953477680_1_alg».proof.Proof.FrameKernelIdealP
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.KernelIdeal.GenP

variable {F : FTy → Type} [FloatOps F]

theorem hz : (![0, 0] : Fin 2 → Nat) = fun _ => 0 := funext fun a => by fin_cases a <;> rfl

/-! ## Output 5: the block of the affine map, in both cases -/

theorem out_A_5 (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond0_0 i) (x0 : Vec F S10000x64 .f32) (x1 : Vec F S10000x64 .f32) (x2 : Vec F S64x128 .f32) (x3 : Vec F S64x128 .f32) (x4 : Vec F S1x128 .f32) :
    out0_A_5 c i a1 h1 a2 h2 a3 h3 a4 h4 a5 h5 a6 h6 a7 h7 a8 h8 hc x0 x1 x2 x3 x4 = k0_pay3 x0 x2 x1 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S10000x128) hz]
  simp only [View.readAt_eq_ld, h1.read_unread, h2.read_unread, h3.read_unread, h4.read_unread, h5.read_unread, View.ld_unit_zero (S := S10000x64) hz, View.ld_unit_zero (S := S64x128) hz, View.ld_unit_zero (S := S1x128) hz]

theorem out_B_5 (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S10000x64 .f32) (x1 : Vec F S10000x64 .f32) (x2 : Vec F S64x128 .f32) (x3 : Vec F S64x128 .f32) (x4 : Vec F S1x128 .f32) (xo6 xo7 : Vec F S1x128 .f32) :
    out0_B_5 c i a1 h1 a2 h2 a3 h3 a4 h4 a5 h5 a6 h6 a7 h7 a8 h8 hc x0 x1 x2 x3 x4 xo6 xo7 = k0_pay3 x0 x2 x1 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero (S := S10000x128) hz]
  simp only [View.readAt_eq_ld, h1.read_unread, h2.read_unread, h3.read_unread, h4.read_unread, h5.read_unread, View.ld_unit_zero (S := S10000x64) hz, View.ld_unit_zero (S := S64x128) hz, View.ld_unit_zero (S := S1x128) hz]

/-! ## Output 6: the running column sums -/

theorem out_A_6 (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond0_0 i) (x0 : Vec F S10000x64 .f32) (x1 : Vec F S10000x64 .f32) (x2 : Vec F S64x128 .f32) (x3 : Vec F S64x128 .f32) (x4 : Vec F S1x128 .f32) :
    out0_A_6 c i a1 h1 a2 h2 a3 h3 a4 h4 a5 h5 a6 h6 a7 h7 a8 h8 hc x0 x1 x2 x3 x4 = k0_pay4 x0 x2 x1 x3 x4 k0_pay1 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S10000x64) hz, View.ld_unit_zero (S := S64x128) hz, View.ld_unit_zero (S := S1x128) hz]

theorem out_B_6 (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S10000x64 .f32) (x1 : Vec F S10000x64 .f32) (x2 : Vec F S64x128 .f32) (x3 : Vec F S64x128 .f32) (x4 : Vec F S1x128 .f32) (xo6 xo7 : Vec F S1x128 .f32) :
    out0_B_6 c i a1 h1 a2 h2 a3 h3 a4 h4 a5 h5 a6 h6 a7 h7 a8 h8 hc x0 x1 x2 x3 x4 xo6 xo7 = k0_pay4 x0 x2 x1 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero (S := S1x128) hz]
  simp only [View.readAt_eq_ld, h1.read_unread, h2.read_unread, h3.read_unread, h4.read_unread, h5.read_unread, h7.read_unread, View.ld_unit_zero (S := S10000x64) hz, View.ld_unit_zero (S := S64x128) hz, View.ld_unit_zero (S := S1x128) hz]

/-! ## Output 7: the running column sums of squares -/

theorem out_A_7 (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond0_0 i) (x0 : Vec F S10000x64 .f32) (x1 : Vec F S10000x64 .f32) (x2 : Vec F S64x128 .f32) (x3 : Vec F S64x128 .f32) (x4 : Vec F S1x128 .f32) :
    out0_A_7 c i a1 h1 a2 h2 a3 h3 a4 h4 a5 h5 a6 h6 a7 h7 a8 h8 hc x0 x1 x2 x3 x4 = k0_pay5 x0 x2 x1 x3 x4 k0_pay2 := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S10000x64) hz, View.ld_unit_zero (S := S64x128) hz, View.ld_unit_zero (S := S1x128) hz]

theorem out_B_7 (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S10000x64 .f32) (x1 : Vec F S10000x64 .f32) (x2 : Vec F S64x128 .f32) (x3 : Vec F S64x128 .f32) (x4 : Vec F S1x128 .f32) (xo6 xo7 : Vec F S1x128 .f32) :
    out0_B_7 c i a1 h1 a2 h2 a3 h3 a4 h4 a5 h5 a6 h6 a7 h7 a8 h8 hc x0 x1 x2 x3 x4 xo6 xo7 = k0_pay5 x0 x2 x1 x3 x4 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  rw [View.canon_unit_zero (S := S1x128) hz]
  simp only [View.readAt_eq_ld, h1.read_unread, h2.read_unread, h3.read_unread, h4.read_unread, h5.read_unread, h8.read_unread, View.ld_unit_zero (S := S10000x64) hz, View.ld_unit_zero (S := S64x128) hz, View.ld_unit_zero (S := S1x128) hz]

end Cert.KernelIdeal.Region0
end
-- ==== Proof.Region0B.lean ====
/-
  The body's three stored values read at one entry, over the extended reals: the affine map at row p and feature j of the
  block, and the two accumulators at feature j as their previous value plus the sum over the block's rows of that map,
  respectively of its square.
-/
import proofs.«175821_j90159953477680_1_alg».proof.Proof.Gen.KernelIdeal.Skeleton
import proofs.«175821_j90159953477680_1_alg».proof.Proof.LibRowReduceProducts
import Idealize.ShloMosaic.Lib.Pipeline.Value
import Idealize.ShloMosaic.Lib.ValueIdx

noncomputable section

open scoped BigOperators
open Idealize.ShloMosaic Idealize.ShloMosaic.ValueIdx

namespace Cert.KernelIdeal.Region0

open Cert.KernelIdeal Cert.KernelIdeal.Gen

/-- The affine map of one block at row p and feature j: the row of the node block against column j of the first weight
    matrix, the row of the neighbourhood block against column j of the second, plus entry j of the bias row. -/
theorem pay3_apply (x0 x1 : Vec Ideal S10000x64 .f32) (x2 x3 : Vec Ideal S64x128 .f32) (x4 : Vec Ideal S1x128 .f32)
    (p : Fin 10000) (j : Fin 128) :
    k0_pay3 (F := Ideal) x0 x2 x1 x3 x4 (ix2 p j)
      = (∑ k : Fin 64, x0 (ix2 p k) * x2 (ix2 k j)) + (∑ k : Fin 64, x1 (ix2 p k) * x3 (ix2 k j)) + x4 (ix2 0 j) := by
  unfold k0_pay3
  show ((matmul (F := Ideal) dot_S10000x64_S64x128_S10000x128_1_0_0_1_n_n none x0 x2 (constant (F := Ideal) S10000x128 .f32 0x00000000#32) (ix2 p j) : EReal)
      + (matmul (F := Ideal) dot_S10000x64_S64x128_S10000x128_1_0_0_1_n_n none (shapeCast S10000x64 x1 shapeCasts_S10000x64_S10000x64) x3
          (constant (F := Ideal) S10000x128 .f32 0x00000000#32) (ix2 p j) : EReal))
      + (broadcastTo S10000x128 (shapeCast S1x128 x4 shapeCasts_S1x128_S1x128) broadcasts_S1x128_S10000x128 (ix2 p j) : EReal) = _
  refine congrArg₂ (· + ·) (congrArg₂ (· + ·) ?_ ?_) ?_
  · exact Cert.LibRowReduceProducts.matmulNN dot_S10000x64_S64x128_S10000x128_1_0_0_1_n_n rfl rfl rfl rfl rfl rfl none x0 x2 p j
  · refine (Cert.LibRowReduceProducts.matmulNN dot_S10000x64_S64x128_S10000x128_1_0_0_1_n_n rfl rfl rfl rfl rfl rfl none
      (shapeCast S10000x64 x1 shapeCasts_S10000x64_S10000x64) x3 p j).trans ?_
    exact Finset.sum_congr rfl fun k _ => congrArg (· * x3 (ix2 k j)) (congrFun (shapeCast_self x1 shapeCasts_S10000x64_S10000x64) (ix2 p k))
  · refine (broadcastTo_apply (shapeCast S1x128 x4 shapeCasts_S1x128_S1x128) broadcasts_S1x128_S10000x128 (ix2 p j) (ix2 0 j)
      (fun a => by match a with | ⟨0, _⟩ => rfl | ⟨1, _⟩ => rfl)).trans ?_
    exact congrFun (shapeCast_self x4 shapeCasts_S1x128_S1x128) (ix2 0 j)

/-- A vector of 128 entries viewed as a one-row matrix reads entry j at (0, j). -/
theorem rowView_apply (v : FVec Ideal S128 .f32) (j : Fin 128) :
    shapeCast S1x128 v shapeCasts_S128_S1x128 (ix2 0 j) = v (ix1 j) :=
  shapeCast_apply v shapeCasts_S128_S1x128 (ix2 0 j) (ix1 j) (by
    rw [Shape.rowMajor_val_one, Shape.rowMajor_val_two]
    show j.val = 0 * 128 + j.val
    omega)

/-- The first accumulator's new value at feature j: its previous value there plus the sum over the block's rows of the
    affine map at that feature. -/
theorem pay4_apply (x0 x1 : Vec Ideal S10000x64 .f32) (x2 x3 : Vec Ideal S64x128 .f32) (x4 acc : Vec Ideal S1x128 .f32)
    (j : Fin 128) :
    k0_pay4 (F := Ideal) x0 x2 x1 x3 x4 acc (ix2 0 j)
      = acc (ix2 0 j) + ∑ p : Fin 10000, k0_pay3 (F := Ideal) x0 x2 x1 x3 x4 (ix2 p j) := by
  unfold k0_pay4
  show (shapeCast S1x128 acc shapeCasts_S1x128_S1x128 (ix2 0 j) : EReal)
      + (shapeCast S1x128 (multiReduction (F := Ideal) .add [0] S128 (k0_pay3 (F := Ideal) x0 x2 x1 x3 x4) 0x00000000#32
          reduces_S10000x128_S128 (.inl rfl) rfl) shapeCasts_S128_S1x128 (ix2 0 j) : EReal) = _
  refine congrArg₂ (· + ·) (congrFun (shapeCast_self acc shapeCasts_S1x128_S1x128) (ix2 0 j)) ?_
  refine (rowView_apply _ j).trans ?_
  exact Cert.LibRowReduceProducts.colSum_apply (k0_pay3 (F := Ideal) x0 x2 x1 x3 x4) reduces_S10000x128_S128 (.inl rfl) rfl j

/-- The second accumulator's new value at feature j: its previous value there plus the sum over the block's rows of the
    square of the affine map at that feature. -/
theorem pay5_apply (x0 x1 : Vec Ideal S10000x64 .f32) (x2 x3 : Vec Ideal S64x128 .f32) (x4 acc : Vec Ideal S1x128 .f32)
    (j : Fin 128) :
    k0_pay5 (F := Ideal) x0 x2 x1 x3 x4 acc (ix2 0 j)
      = acc (ix2 0 j) + ∑ p : Fin 10000, k0_pay3 (F := Ideal) x0 x2 x1 x3 x4 (ix2 p j) * k0_pay3 (F := Ideal) x0 x2 x1 x3 x4 (ix2 p j) := by
  unfold k0_pay5
  show (shapeCast S1x128 acc shapeCasts_S1x128_S1x128 (ix2 0 j) : EReal)
      + (shapeCast S1x128 (multiReduction (F := Ideal) .add [0] S128
          (mulf (F := Ideal) (k0_pay3 (F := Ideal) x0 x2 x1 x3 x4) (k0_pay3 (F := Ideal) x0 x2 x1 x3 x4)) 0x00000000#32
          reduces_S10000x128_S128 (.inl rfl) rfl) shapeCasts_S128_S1x128 (ix2 0 j) : EReal) = _
  refine congrArg₂ (· + ·) (congrFun (shapeCast_self acc shapeCasts_S1x128_S1x128) (ix2 0 j)) ?_
  refine (rowView_apply _ j).trans ?_
  exact Cert.LibRowReduceProducts.colSum_apply (mulf (k0_pay3 (F := Ideal) x0 x2 x1 x3 x4) (k0_pay3 (F := Ideal) x0 x2 x1 x3 x4))
    reduces_S10000x128_S128 (.inl rfl) rfl j

/-- The value both accumulators are reset to at the first point reads zero everywhere. -/
theorem pay1_apply (i : S1x128.Idx) : k0_pay1 (F := Ideal) i = 0 := by
  unfold k0_pay1
  show Ideal.ofBits .f32 0x00000000#32 = 0
  simp [Ideal.ofBits, Ideal.ieee]

theorem pay2_apply (i : S1x128.Idx) : k0_pay2 (F := Ideal) i = 0 := by
  unfold k0_pay2
  show Ideal.ofBits .f32 0x00000000#32 = 0
  simp [Ideal.ofBits, Ideal.ieee]

end Cert.KernelIdeal.Region0
end
-- ==== Proof.Region0C.lean ====
/-
  The entry contents of the five input arrays as plain functions of a node's row and a feature, the layer's affine map
  H of them, and the link to one grid point: the block each input window reads at point t is the ten-thousand-row slab
  of its array starting at row 10000 t (the weights and the bias: the whole array), so the affine map the body stores
  at row p, feature j of its block is H at row 10000 t + p, feature j.
-/
import proofs.«175821_j90159953477680_1_alg».proof.Proof.FrameKernelIdealP
import proofs.«175821_j90159953477680_1_alg».proof.Proof.Spec
import proofs.«175821_j90159953477680_1_alg».proof.Proof.Region0B
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.GenP

variable (V : (c : Dev nD) → (b : Ref sig .tc) → Buf (Elt Ideal) ((c : Thread nD τ).loc b))

/-- The node features on entry: row r, input feature k. -/
noncomputable def X (c : Dev nD) : Fin 100000 → Fin 64 → EReal := fun r k => (V c (Pipeline.arrRef spec0 0) : S100000x64.Idx → EReal) (ix2 r k)
/-- The neighbourhood means on entry: row r, input feature k. -/
noncomputable def A (c : Dev nD) : Fin 100000 → Fin 64 → EReal := fun r k => (V c (Pipeline.arrRef spec0 1) : S100000x64.Idx → EReal) (ix2 r k)
/-- The weights applied to a node's own features: input feature k, output feature j. -/
noncomputable def Ws (c : Dev nD) : Fin 64 → Fin 128 → EReal := fun k j => (V c (Pipeline.arrRef spec0 2) : S64x128.Idx → EReal) (ix2 k j)
/-- The weights applied to the neighbourhood mean. -/
noncomputable def Wn (c : Dev nD) : Fin 64 → Fin 128 → EReal := fun k j => (V c (Pipeline.arrRef spec0 3) : S64x128.Idx → EReal) (ix2 k j)
/-- The bias row. -/
noncomputable def Bv (c : Dev nD) : Fin 128 → EReal := fun j => (V c (Pipeline.arrRef spec0 4) : S1x128.Idx → EReal) (ix2 0 j)
/-- The layer's affine map of the entry contents, at every node and output feature. -/
noncomputable def H (c : Dev nD) : Fin 100000 → Fin 128 → EReal := Spec.lin (X V c) (A V c) (Ws V c) (Wn V c) (Bv V c)

/-! ## The block index of each input window at a point -/

/-- The two row-tiled inputs: the point itself along the rows, zero along the features. -/
theorem hidx0 (t : Fin cfg0.N) : win0_0.index t 0 = t.val ∧ win0_0.index t 1 = 0 := by
  rcases fin_N0 t with rfl | rfl | rfl | rfl | rfl | rfl | rfl | rfl | rfl | rfl <;> decide
theorem hidx1 (t : Fin cfg0.N) : win0_1.index t 0 = t.val ∧ win0_1.index t 1 = 0 := by
  rcases fin_N0 t with rfl | rfl | rfl | rfl | rfl | rfl | rfl | rfl | rfl | rfl <;> decide
/-- The weights and the bias: block (0, 0) at every point. -/
theorem hidx2 (t : Fin cfg0.N) : win0_2.index t 0 = 0 ∧ win0_2.index t 1 = 0 := by
  rcases fin_N0 t with rfl | rfl | rfl | rfl | rfl | rfl | rfl | rfl | rfl | rfl <;> decide
theorem hidx3 (t : Fin cfg0.N) : win0_3.index t 0 = 0 ∧ win0_3.index t 1 = 0 := by
  rcases fin_N0 t with rfl | rfl | rfl | rfl | rfl | rfl | rfl | rfl | rfl | rfl <;> decide
theorem hidx4 (t : Fin cfg0.N) : win0_4.index t 0 = 0 ∧ win0_4.index t 1 = 0 := by
  rcases fin_N0 t with rfl | rfl | rfl | rfl | rfl | rfl | rfl | rfl | rfl | rfl <;> decide

/-! ## Each input block read at an entry -/

theorem iblk_0 (c : Dev nD) (t : Fin cfg0.N) (p : Fin 10000) (k : Fin 64) :
    (iblk0 V c 0 t : S10000x64.Idx → EReal) (ix2 p k) = X V c (Spec.blockRow (t.cast N_0) p) k := by
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t 0 * 10000 + 1 * p.val = 10000 * t.val + p.val; rw [(hidx0 t).1]; omega
  | ⟨1, _⟩ => show win0_0.index t 1 * 64 + 1 * k.val = k.val; rw [(hidx0 t).2]; omega

theorem iblk_1 (c : Dev nD) (t : Fin cfg0.N) (p : Fin 10000) (k : Fin 64) :
    (iblk0 V c 1 t : S10000x64.Idx → EReal) (ix2 p k) = A V c (Spec.blockRow (t.cast N_0) p) k := by
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t 0 * 10000 + 1 * p.val = 10000 * t.val + p.val; rw [(hidx1 t).1]; omega
  | ⟨1, _⟩ => show win0_1.index t 1 * 64 + 1 * k.val = k.val; rw [(hidx1 t).2]; omega

theorem iblk_2 (c : Dev nD) (t : Fin cfg0.N) (k : Fin 64) (j : Fin 128) :
    (iblk0 V c 2 t : S64x128.Idx → EReal) (ix2 k j) = Ws V c k j := by
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t 0 * 64 + 1 * k.val = k.val; rw [(hidx2 t).1]; omega
  | ⟨1, _⟩ => show win0_2.index t 1 * 128 + 1 * j.val = j.val; rw [(hidx2 t).2]; omega

theorem iblk_3 (c : Dev nD) (t : Fin cfg0.N) (k : Fin 64) (j : Fin 128) :
    (iblk0 V c 3 t : S64x128.Idx → EReal) (ix2 k j) = Wn V c k j := by
  unfold iblk0
  rw [View.read_apply]
  show V c (Pipeline.arrRef spec0 3) _ = V c (Pipeline.arrRef spec0 3) _
  refine congrArg (V c (Pipeline.arrRef spec0 3)) (funext fun a => Fin.ext ?_)
  match a with
  | ⟨0, _⟩ => show win0_3.index t 0 * 64 + 1 * k.val = k.val; rw [(hidx3 t).1]; omega
  | ⟨1, _⟩ => show win0_3.index t 1 * 128 + 1 * j.val = j.val; rw [(hidx3 t).2]; omega

theorem iblk_4 (c : Dev nD) (t : Fin cfg0.N) (j : Fin 128) :
    (iblk0 V c 4 t : S1x128.Idx → EReal) (ix2 0 j) = Bv V c j := by
  unfold iblk0
  rw [View.read_apply]
  show V c (Pipeline.arrRef spec0 4) _ = V c (Pipeline.arrRef spec0 4) _
  refine congrArg (V c (Pipeline.arrRef spec0 4)) (funext fun a => Fin.ext ?_)
  match a with
  | ⟨0, _⟩ => show win0_4.index t 0 * 1 + 1 * 0 = 0; rw [(hidx4 t).1]
  | ⟨1, _⟩ => show win0_4.index t 1 * 128 + 1 * j.val = j.val; rw [(hidx4 t).2]; omega

/-! ## The affine map the body stores at point t is H on that point's rows -/

/-- The body's stored block at point t, row p, feature j. -/
abbrev hblk (c : Dev nD) (t : Fin cfg0.N) : S10000x128.Idx → EReal :=
  k0_pay3 (F := Ideal) (iblk0 V c 0 t) (iblk0 V c 2 t) (iblk0 V c 1 t) (iblk0 V c 3 t) (iblk0 V c 4 t)

theorem hblk_apply (c : Dev nD) (t : Fin cfg0.N) (p : Fin 10000) (j : Fin 128) :
    hblk V c t (ix2 p j) = H V c (Spec.blockRow (t.cast N_0) p) j := by
  refine (pay3_apply (iblk0 V c 0 t) (iblk0 V c 1 t) (iblk0 V c 2 t) (iblk0 V c 3 t) (iblk0 V c 4 t) p j).trans ?_
  unfold H Spec.lin
  refine congrArg₂ (· + ·) (congrArg₂ (· + ·) ?_ ?_) (iblk_4 V c t j)
  · exact Finset.sum_congr rfl fun k _ => congrArg₂ (· * ·) (iblk_0 V c t p k) (iblk_2 V c t k j)
  · exact Finset.sum_congr rfl fun k _ => congrArg₂ (· * ·) (iblk_1 V c t p k) (iblk_3 V c t k j)

end Cert.KernelIdeal.Region0
end
-- ==== Proof.Region0D.lean ====
/-
  Output 5 of the first region. Each grid point stores its own ten-thousand-row block of the affine map and writes it
  back; the ten blocks tile the array, so the array ends holding the affine map of the entry contents at every node.
-/
import proofs.«175821_j90159953477680_1_alg».proof.Proof.FrameKernelIdealP
import proofs.«175821_j90159953477680_1_alg».proof.Proof.Spec
import proofs.«175821_j90159953477680_1_alg».proof.Proof.Region0A
import proofs.«175821_j90159953477680_1_alg».proof.Proof.Region0C
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.GenP

variable (V : (c : Dev nD) → (b : Ref sig .tc) → Buf (Elt Ideal) ((c : Thread nD τ).loc b))

/-- After the body at any point, output 5's staging buffer holds that point's block of the affine map. -/
theorem outs5 (c : Dev nD) (t : Fin cfg0.N) : (outsAt0 V c t.val t.isLt).1 = hblk V c t := by
  by_cases h0 : t.val % 10 = 0
  · rw [outsAt0_A V c t h0]
    dsimp only
    exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]
    dsimp only
    exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- The contents output 5's array ends with: H at the index's row and feature. -/
abbrev G5 (c : Dev nD) : Buf (Elt Ideal) ((cfg0.win 5).arr.view.loc (c.tc : Thread nD τ)) :=
  fun i => H V c (i 0) (i 1)

/-- Output 5's block index at a point: the point itself along the rows, zero along the features. -/
theorem hidx5 (t : Fin cfg0.N) : win0_5.index t 0 = t.val ∧ win0_5.index t 1 = 0 := by
  rcases fin_N0 t with rfl | rfl | rfl | rfl | rfl | rfl | rfl | rfl | rfl | rfl <;> decide

/-- What point t writes back is its block of those contents: entry (p, j) of the stored block is H at row 10000 t + p,
    which is where entry (p, j) of block t sits in the array. -/
theorem flushed5 (c : Dev nD) (t : Fin cfg0.N) (hf : (cfg0.win 5).flush t = true) :
    (dat0 V c).flushed 5 t = ((cfg0.win 5).blk t).view.read (Elt Ideal) (G5 V c) := by
  show (cfg0.win 5).cut (grid0.coords t) ((dat0 V c).after 5 t) = _
  rw [after0_5, outs5]
  have key : ∀ y : S10000x128.Idx, (cfg0.win 5).cut (grid0.coords t) (hblk V c t) y
      = View.read (Elt Ideal) ((cfg0.win 5).blk t).view (G5 V c) y := by
    intro y
    obtain ⟨p, j, rfl⟩ : ∃ (p : Fin 10000) (j : Fin 128), y = ix2 p j := ⟨y 0, y 1, eq_ix2 y⟩
    rw [View.read_apply]
    show hblk V c t (ix2 p j) = H V c _ _
    refine (hblk_apply V c t p j).trans ?_
    refine congrArg₂ (H V c) (Fin.ext ?_) (Fin.ext ?_)
    · show 10000 * t.val + p.val = win0_5.index t 0 * 10000 + 1 * p.val
      rw [(hidx5 t).1]; omega
    · show j.val = win0_5.index t 1 * 128 + 1 * j.val
      rw [(hidx5 t).2]; omega
  exact funext key

/-- Every row lies in the block of the point "row divided by 10000". -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 100000 := (i 0).isLt
  have h1 : (i 1 : Nat) < 128 := (i 1).isLt
  have hN : grid0.N = 10 := N_0
  have hT : (i 0 : Nat) / 10000 < grid0.N := by omega
  refine ⟨⟨(i 0 : Nat) / 10000, hT⟩, flush0_5 _, ?_⟩
  show i ∈ ((View.whole main_v20_0).slice (win0_5.rect ⟨(i 0 : Nat) / 10000, hT⟩)).set
  rw [View.set_slice_whole, Rect.mem_set_unit]
  intro a
  match a with
  | ⟨0, _⟩ =>
    show win0_5.index ⟨(i 0 : Nat) / 10000, hT⟩ 0 * 10000 ≤ (i 0 : Nat)
      ∧ (i 0 : Nat) < win0_5.index ⟨(i 0 : Nat) / 10000, hT⟩ 0 * 10000 + 10000
    rw [(hidx5 ⟨(i 0 : Nat) / 10000, hT⟩).1]
    show (i 0 : Nat) / 10000 * 10000 ≤ (i 0 : Nat) ∧ (i 0 : Nat) < (i 0 : Nat) / 10000 * 10000 + 10000
    omega
  | ⟨1, _⟩ =>
    show win0_5.index ⟨(i 0 : Nat) / 10000, hT⟩ 1 * 128 ≤ (i 1 : Nat)
      ∧ (i 1 : Nat) < win0_5.index ⟨(i 0 : Nat) / 10000, hT⟩ 1 * 128 + 128
    rw [(hidx5 ⟨(i 0 : Nat) / 10000, hT⟩).2]
    omega

/-- Output 5's array ends holding the affine map of the entry contents at every node and feature. -/
theorem arr5 (c : Dev nD) (r : Fin 100000) (j : Fin 128) :
    ((dat0 (F := Ideal) V c).arrAt 5 cfg0.N : S100000x128.Idx → EReal) (ix2 r j) = H V c r j :=
  congrFun ((dat0 V c).arrAt_eq_of_cover 5 (G5 V c) (flushed5 V c) (cover5 c)) (ix2 r j)

end Cert.KernelIdeal.Region0
end
-- ==== Proof.Region0E.lean ====
/-
  Outputs 6 and 7 of the first region: the two accumulators. They are zeroed at the first grid point, every point adds
  the column sums of its block of the affine map (of its squares), and the one-row arrays are written back once, after
  the last point. So after point n the staging buffers hold the sums over blocks 0..n (an induction on the point), the
  arrays end with the sum over all ten blocks, and ten blocks of ten thousand rows are the hundred thousand rows.
  Over the extended reals zero is neutral for addition and addition is associative and commutative, so no finiteness
  is needed anywhere.
-/
import proofs.«175821_j90159953477680_1_alg».proof.Proof.FrameKernelIdealP
import proofs.«175821_j90159953477680_1_alg».proof.Proof.Spec
import proofs.«175821_j90159953477680_1_alg».proof.Proof.Region0A
import proofs.«175821_j90159953477680_1_alg».proof.Proof.Region0C
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.GenP

variable (V : (c : Dev nD) → (b : Ref sig .tc) → Buf (Elt Ideal) ((c : Thread nD τ).loc b))

/-! ## The sums over one block's rows -/

/-- The sum over the rows of block t of H at feature j (zero for a block number past the grid). -/
noncomputable def blkSum (c : Dev nD) (j : Fin 128) (t : ℕ) : EReal :=
  if h : t < 10 then ∑ p : Fin 10000, H V c (Spec.blockRow ⟨t, h⟩ p) j else 0

/-- The same for the squares. -/
noncomputable def blkSumSq (c : Dev nD) (j : Fin 128) (t : ℕ) : EReal :=
  if h : t < 10 then ∑ p : Fin 10000, H V c (Spec.blockRow ⟨t, h⟩ p) j * H V c (Spec.blockRow ⟨t, h⟩ p) j else 0

/-- The column sum of the block the body stores at point t is that block's sum of H. -/
theorem hblk_sum (c : Dev nD) (t : Fin cfg0.N) (j : Fin 128) :
    ∑ p : Fin 10000, hblk V c t (ix2 p j) = blkSum V c j t.val := by
  have hN : grid0.N = 10 := N_0
  have hlt : t.val < grid0.N := t.isLt
  unfold blkSum
  rw [dif_pos (by omega : t.val < 10)]
  exact Finset.sum_congr rfl fun p _ => hblk_apply V c t p j

theorem hblk_sumSq (c : Dev nD) (t : Fin cfg0.N) (j : Fin 128) :
    ∑ p : Fin 10000, hblk V c t (ix2 p j) * hblk V c t (ix2 p j) = blkSumSq V c j t.val := by
  have hN : grid0.N = 10 := N_0
  have hlt : t.val < grid0.N := t.isLt
  unfold blkSumSq
  rw [dif_pos (by omega : t.val < 10)]
  exact Finset.sum_congr rfl fun p _ => congrArg₂ (· * ·) (hblk_apply V c t p j) (hblk_apply V c t p j)

/-! ## After point n the accumulators hold the sums over blocks 0..n -/

theorem outs6 (c : Dev nD) (j : Fin 128) : ∀ (n : ℕ) (h : n < cfg0.N),
    (outsAt0 V c n h).2.1 (ix2 0 j) = ∑ t ∈ Finset.range (n + 1), blkSum V c j t
  | 0, h => by
    rw [outsAt0_A V c (⟨0, h⟩ : Fin cfg0.N) rfl]
    dsimp only
    refine (congrFun (out_A_6 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr rfl) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N))) (ix2 0 j)).trans ?_
    refine (pay4_apply (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) (k0_pay1 (F := Ideal)) j).trans ?_
    refine (congrArg₂ (· + ·) (pay1_apply (ix2 0 j)) (hblk_sum V c (⟨0, h⟩ : Fin cfg0.N) j)).trans ?_
    rw [zero_add, Finset.sum_range_succ, Finset.sum_range_zero, zero_add]
  | n + 1, h => by
    have hN : grid0.N = 10 := N_0
    have hlt : n + 1 < grid0.N := h
    have hB : ¬(⟨n + 1, h⟩ : Fin cfg0.N).val % 10 = 0 := by dsimp only; omega
    rw [outsAt0_B V c (⟨n + 1, h⟩ : Fin cfg0.N) hB]
    dsimp only
    refine (congrFun (out_B_6 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2) (ix2 0 j)).trans ?_
    refine (pay4_apply (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 j).trans ?_
    rw [Finset.sum_range_succ (fun t => blkSum V c j t) (n + 1)]
    exact congrArg₂ (· + ·) (outs6 c j n (Nat.lt_of_succ_lt h)) (hblk_sum V c (⟨n + 1, h⟩ : Fin cfg0.N) j)

theorem outs7 (c : Dev nD) (j : Fin 128) : ∀ (n : ℕ) (h : n < cfg0.N),
    (outsAt0 V c n h).2.2 (ix2 0 j) = ∑ t ∈ Finset.range (n + 1), blkSumSq V c j t
  | 0, h => by
    rw [outsAt0_A V c (⟨0, h⟩ : Fin cfg0.N) rfl]
    dsimp only
    refine (congrFun (out_A_7 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr rfl) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N))) (ix2 0 j)).trans ?_
    refine (pay5_apply (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) (k0_pay2 (F := Ideal)) j).trans ?_
    refine (congrArg₂ (· + ·) (pay2_apply (ix2 0 j)) (hblk_sumSq V c (⟨0, h⟩ : Fin cfg0.N) j)).trans ?_
    rw [zero_add, Finset.sum_range_succ, Finset.sum_range_zero, zero_add]
  | n + 1, h => by
    have hN : grid0.N = 10 := N_0
    have hlt : n + 1 < grid0.N := h
    have hB : ¬(⟨n + 1, h⟩ : Fin cfg0.N).val % 10 = 0 := by dsimp only; omega
    rw [outsAt0_B V c (⟨n + 1, h⟩ : Fin cfg0.N) hB]
    dsimp only
    refine (congrFun (out_B_7 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2) (ix2 0 j)).trans ?_
    refine (pay5_apply (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.2 j).trans ?_
    rw [Finset.sum_range_succ (fun t => blkSumSq V c j t) (n + 1)]
    exact congrArg₂ (· + ·) (outs7 c j n (Nat.lt_of_succ_lt h)) (hblk_sumSq V c (⟨n + 1, h⟩ : Fin cfg0.N) j)

/-! ## The arrays after the region -/

/-- The contents output 6's array ends with: at feature j, the ten blocks' sums added up. -/
abbrev G6 (c : Dev nD) : Buf (Elt Ideal) ((cfg0.win 6).arr.view.loc (c.tc : Thread nD τ)) :=
  fun i => (∑ t ∈ Finset.range 10, blkSum V c (i 1) t : EReal)

/-- Output 6's block is block (0, 0), its whole array, at every point. -/
theorem hidx6 (t : Fin cfg0.N) : win0_6.index t 0 = 0 ∧ win0_6.index t 1 = 0 := by
  rcases fin_N0 t with rfl | rfl | rfl | rfl | rfl | rfl | rfl | rfl | rfl | rfl <;> decide

/-- The one write-back, after the last point, writes the sum over all ten points. -/
theorem flushed6 (c : Dev nD) (t : Fin cfg0.N) (hf : (cfg0.win 6).flush t = true) :
    (dat0 V c).flushed 6 t = ((cfg0.win 6).blk t).view.read (Elt Ideal) (G6 V c) := by
  have hN : grid0.N = 10 := N_0
  have hlt : t.val < grid0.N := t.isLt
  have h9 : t.val = 9 := by have := (flush0_6 t).mp hf; omega
  show (cfg0.win 6).cut (grid0.coords t) ((dat0 V c).after 6 t) = _
  rw [after0_6]
  have key : ∀ y : S1x128.Idx, (cfg0.win 6).cut (grid0.coords t) (outsAt0 V c t.val t.isLt).2.1 y
      = View.read (Elt Ideal) ((cfg0.win 6).blk t).view (G6 V c) y := by
    intro y
    obtain ⟨z, j, rfl⟩ : ∃ (z : Fin 1) (j : Fin 128), y = ix2 z j := ⟨y 0, y 1, eq_ix2 y⟩
    obtain rfl : z = 0 := Subsingleton.elim _ _
    rw [View.read_apply]
    show (outsAt0 V c t.val t.isLt).2.1 (ix2 0 j) = G6 V c (((cfg0.win 6).blk t).view.emb (ix2 0 j))
    have e1 : ((cfg0.win 6).blk t).view.emb (ix2 0 j) 1 = j := Fin.ext (by
      show win0_6.index t 1 * 128 + 1 * j.val = j.val
      rw [(hidx6 t).2]; omega)
    refine (outs6 V c j t.val t.isLt).trans ?_
    refine (congrArg (fun n => ∑ t' ∈ Finset.range (n + 1), blkSum V c j t') h9).trans ?_
    exact congrArg (fun jj => ∑ t' ∈ Finset.range 10, blkSum V c jj t') e1.symm
  exact funext key

/-- The last point's block is the whole one-row array. -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  have h0 : (i 0 : Nat) < 1 := (i 0).isLt
  have h1 : (i 1 : Nat) < 128 := (i 1).isLt
  refine ⟨t0_9, (flush0_6 t0_9).mpr rfl, ?_⟩
  show i ∈ ((View.whole main_v20_1).slice (win0_6.rect t0_9)).set
  rw [View.set_slice_whole, Rect.mem_set_unit]
  intro a
  match a with
  | ⟨0, _⟩ =>
    show win0_6.index t0_9 0 * 1 ≤ (i 0 : Nat) ∧ (i 0 : Nat) < win0_6.index t0_9 0 * 1 + 1
    rw [(hidx6 t0_9).1]; omega
  | ⟨1, _⟩ =>
    show win0_6.index t0_9 1 * 128 ≤ (i 1 : Nat) ∧ (i 1 : Nat) < win0_6.index t0_9 1 * 128 + 128
    rw [(hidx6 t0_9).2]; omega

/-- Output 6's array ends, at feature j, with the ten blocks' sums added up. -/
theorem arr6_blocks (c : Dev nD) (j : Fin 128) :
    ((dat0 (F := Ideal) V c).arrAt 6 cfg0.N : S1x128.Idx → EReal) (ix2 0 j) = ∑ t ∈ Finset.range 10, blkSum V c j t :=
  congrFun ((dat0 V c).arrAt_eq_of_cover 6 (G6 V c) (flushed6 V c) (cover6 c)) (ix2 0 j)

/-- The contents output 7's array ends with: at feature j, the ten blocks' sums added up. -/
abbrev G7 (c : Dev nD) : Buf (Elt Ideal) ((cfg0.win 7).arr.view.loc (c.tc : Thread nD τ)) :=
  fun i => (∑ t ∈ Finset.range 10, blkSumSq V c (i 1) t : EReal)

/-- Output 7's block is block (0, 0), its whole array, at every point. -/
theorem hidx7 (t : Fin cfg0.N) : win0_7.index t 0 = 0 ∧ win0_7.index t 1 = 0 := by
  rcases fin_N0 t with rfl | rfl | rfl | rfl | rfl | rfl | rfl | rfl | rfl | rfl <;> decide

/-- The one write-back, after the last point, writes the sum over all ten points. -/
theorem flushed7 (c : Dev nD) (t : Fin cfg0.N) (hf : (cfg0.win 7).flush t = true) :
    (dat0 V c).flushed 7 t = ((cfg0.win 7).blk t).view.read (Elt Ideal) (G7 V c) := by
  have hN : grid0.N = 10 := N_0
  have hlt : t.val < grid0.N := t.isLt
  have h9 : t.val = 9 := by have := (flush0_7 t).mp hf; omega
  show (cfg0.win 7).cut (grid0.coords t) ((dat0 V c).after 7 t) = _
  rw [after0_7]
  have key : ∀ y : S1x128.Idx, (cfg0.win 7).cut (grid0.coords t) (outsAt0 V c t.val t.isLt).2.2 y
      = View.read (Elt Ideal) ((cfg0.win 7).blk t).view (G7 V c) y := by
    intro y
    obtain ⟨z, j, rfl⟩ : ∃ (z : Fin 1) (j : Fin 128), y = ix2 z j := ⟨y 0, y 1, eq_ix2 y⟩
    obtain rfl : z = 0 := Subsingleton.elim _ _
    rw [View.read_apply]
    show (outsAt0 V c t.val t.isLt).2.2 (ix2 0 j) = G7 V c (((cfg0.win 7).blk t).view.emb (ix2 0 j))
    have e1 : ((cfg0.win 7).blk t).view.emb (ix2 0 j) 1 = j := Fin.ext (by
      show win0_7.index t 1 * 128 + 1 * j.val = j.val
      rw [(hidx7 t).2]; omega)
    refine (outs7 V c j t.val t.isLt).trans ?_
    refine (congrArg (fun n => ∑ t' ∈ Finset.range (n + 1), blkSumSq V c j t') h9).trans ?_
    exact congrArg (fun jj => ∑ t' ∈ Finset.range 10, blkSumSq V c jj t') e1.symm
  exact funext key

/-- The last point's block is the whole one-row array. -/
theorem cover7 (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0 : Nat) < 1 := (i 0).isLt
  have h1 : (i 1 : Nat) < 128 := (i 1).isLt
  refine ⟨t0_9, (flush0_7 t0_9).mpr rfl, ?_⟩
  show i ∈ ((View.whole main_v20_2).slice (win0_7.rect t0_9)).set
  rw [View.set_slice_whole, Rect.mem_set_unit]
  intro a
  match a with
  | ⟨0, _⟩ =>
    show win0_7.index t0_9 0 * 1 ≤ (i 0 : Nat) ∧ (i 0 : Nat) < win0_7.index t0_9 0 * 1 + 1
    rw [(hidx7 t0_9).1]; omega
  | ⟨1, _⟩ =>
    show win0_7.index t0_9 1 * 128 ≤ (i 1 : Nat) ∧ (i 1 : Nat) < win0_7.index t0_9 1 * 128 + 128
    rw [(hidx7 t0_9).2]; omega

/-- Output 7's array ends, at feature j, with the ten blocks' sums added up. -/
theorem arr7_blocks (c : Dev nD) (j : Fin 128) :
    ((dat0 (F := Ideal) V c).arrAt 7 cfg0.N : S1x128.Idx → EReal) (ix2 0 j) = ∑ t ∈ Finset.range 10, blkSumSq V c j t :=
  congrFun ((dat0 V c).arrAt_eq_of_cover 7 (G7 V c) (flushed7 V c) (cover7 c)) (ix2 0 j)

end Cert.KernelIdeal.Region0
end
-- ==== Proof.Region0F.lean ====
/-
  Ten blocks of ten thousand rows are the hundred thousand rows: a sum over the block number t below 10 of the sums over
  the rows p of block t, of any function of the row 10000 t + p, is the sum of that function over all rows. The pairs
  (t, p) and the rows correspond one to one by (t, p) ↦ 10000 t + p.
-/
import proofs.«175821_j90159953477680_1_alg».proof.Proof.Spec
import Mathlib.Data.Fintype.BigOperators
import Mathlib.Logic.Equiv.Fin.Basic

noncomputable section

open scoped BigOperators

namespace Cert.KernelIdeal.Region0

/-- The sum over the ten blocks of the per-block sums is the sum over all rows. -/
theorem sum_blocks {M : Type*} [AddCommMonoid M] (f : Fin 100000 → M) :
    ∑ t ∈ Finset.range 10, (if h : t < 10 then ∑ p : Fin 10000, f (Cert.Spec.blockRow ⟨t, h⟩ p) else 0)
      = ∑ r : Fin 100000, f r := by
  rw [← Fin.sum_univ_eq_sum_range
    (fun t => if h : t < 10 then ∑ p : Fin 10000, f (Cert.Spec.blockRow ⟨t, h⟩ p) else 0) 10]
  refine (Finset.sum_congr rfl fun t _ => dif_pos t.isLt).trans ?_
  refine (Fintype.sum_prod_type' (fun (t : Fin 10) (p : Fin 10000) => f (Cert.Spec.blockRow t p))).symm.trans ?_
  exact Fintype.sum_equiv (finProdFinEquiv (m := 10) (n := 10000)) _ f fun x => congrArg f (Fin.ext (by
    show 10000 * x.1.val + x.2.val = x.2.val + 10000 * x.1.val
    omega))

end Cert.KernelIdeal.Region0
end
-- ==== Proof.Region0.lean ====
/-
  What the first region leaves in its three output arrays, from the entry contents: output 5 holds the layer's affine
  map H at every node and feature (proved with the per-point blocks), output 6 the sum of H down each column, output 7
  the sum of its squares down each column — the per-block sums of the accumulators regrouped over all rows.
-/
import proofs.«175821_j90159953477680_1_alg».proof.Proof.FrameKernelIdealP
import proofs.«175821_j90159953477680_1_alg».proof.Proof.Spec
import proofs.«175821_j90159953477680_1_alg».proof.Proof.Region0D
import proofs.«175821_j90159953477680_1_alg».proof.Proof.Region0E
import proofs.«175821_j90159953477680_1_alg».proof.Proof.Region0F
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.GenP

variable (V : (c : Dev nD) → (b : Ref sig .tc) → Buf (Elt Ideal) ((c : Thread nD τ).loc b))

/-- Output 6's array ends, at feature j, with the sum of the affine map over all nodes. -/
theorem arr6 (c : Dev nD) (j : Fin 128) :
    ((dat0 (F := Ideal) V c).arrAt 6 cfg0.N : S1x128.Idx → EReal) (ix2 0 j) = Spec.colSum (H V c) j :=
  (arr6_blocks V c j).trans (sum_blocks (fun r => H V c r j))

/-- Output 7's array ends, at feature j, with the sum of the squares of the affine map over all nodes. -/
theorem arr7 (c : Dev nD) (j : Fin 128) :
    ((dat0 (F := Ideal) V c).arrAt 7 cfg0.N : S1x128.Idx → EReal) (ix2 0 j) = Spec.colSumSq (H V c) j :=
  (arr7_blocks V c j).trans (sum_blocks (fun r => H V c r j * H V c r j))

end Cert.KernelIdeal.Region0
end
-- ==== Proof.Region1.lean ====
/-
  Region 1 — batch normalisation and the clip at zero — read as ONE function of the arrays the region finds. Each of the
  ten grid points takes a tile of 10000 nodes of the pre-activations and the four one-row arrays (mean, variance, scale,
  shift): at node `r` and feature `q` it writes `max (((h r q - mean q) · rsqrt (var q + ε)) · γ q + β q) 0`. Row `p` of point
  `t`'s tile is node `10000 t + p`, and the ten tiles cover the 100000 nodes.
-/
import proofs.«175821_j90159953477680_1_alg».proof.Proof.FrameKernelIdealP
import proofs.«175821_j90159953477680_1_alg».proof.Proof.Spec
import proofs.«175821_j90159953477680_1_alg».proof.Proof.LibRowReduceProducts
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Batch normalisation then the clip at zero, at a node and a feature, in the kernel's order of operations:
    `max (((h - mean) · rsqrt (var + ε)) · γ + β) 0`, with `ε` and `0` the programs' own literals. -/
def bnRelu (h : Fin 100000 → Fin 128 → EReal) (mean var gamma beta : Fin 128 → EReal) (r : Fin 100000) (q : Fin 128) : EReal :=
  max (((h r q - mean q) * Ideal.rsqrt (var q + Ideal.ofBits .f32 0x3727C5AC#32)) * gamma q + beta q) (Ideal.ofBits .f32 0x00000000#32)

/-- The body's stored value at row `p` of the block and feature `q`: the statistics, the scale and the shift are rows. -/
theorem pay_apply (v0 v7 v13 v17 : Vec Ideal S1x128 .f32) (v5 : Vec Ideal S10000x128 .f32) (p : Fin 10000) (q : Fin 128) :
    k1_pay1 v0 v5 v7 v13 v17 (ix2 p q)
      = max (((v5 (ix2 p q) - v7 (ix2 0 q)) * Ideal.rsqrt (v0 (ix2 0 q) + Ideal.ofBits .f32 0x3727C5AC#32)) * v13 (ix2 0 q)
              + v17 (ix2 0 q)) (Ideal.ofBits .f32 0x00000000#32) := by
  unfold k1_pay1
  simp only [shapeCast_self]
  show max (((v5 (ix2 p q) - broadcastTo S10000x128 v7 broadcasts_S1x128_S10000x128 (ix2 p q))
              * broadcastTo S10000x128 (rsqrt (F := Ideal) (addf (F := Ideal) v0 (broadcast S1x128 (Scalar.ofBits (F := Ideal) .f32 0x3727C5AC#32)))) broadcasts_S1x128_S10000x128 (ix2 p q))
              * broadcastTo S10000x128 v13 broadcasts_S1x128_S10000x128 (ix2 p q)
            + broadcastTo S10000x128 v17 broadcasts_S1x128_S10000x128 (ix2 p q)) _ = _
  rw [broadcastTo_1b_ab_apply, broadcastTo_1b_ab_apply, broadcastTo_1b_ab_apply, broadcastTo_1b_ab_apply]
  rfl

/-- How the printed block index maps move over the grid: the node-tile window and the output follow the point, the four
    rows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 10 := lt_of_lt_of_eq t.isLt (show cfg1.N = 10 from N_1)

/-- Row `p` of point `t`'s block of the node-tile window is row `10000 t + p` of its array. -/
theorem rd0 (c : Dev nD) (t : Fin cfg1.N) (p : Fin 10000) (q : Fin 128) (R : Fin 100000) (hR : R.val = 10000 * t.val + p.val) :
    iblk1 V c 0 t (ix2 p q) = V c main_v20_0 (ix2 R q) := by
  obtain ⟨e0, e1, -⟩ := idx_facts t
  show V c main_v20_0 (((cfg1.win 0).blk t).view.emb (ix2 p q)) = V c main_v20_0 (ix2 R q)
  refine congrArg (V c main_v20_0) (funext fun a => Fin.ext ?_)
  match a with
  | ⟨0, _⟩ => show win1_0.index t (0 : Fin 2) * 10000 + 1 * p.val = R.val; omega
  | ⟨1, _⟩ => show win1_0.index t (1 : Fin 2) * 128 + 1 * q.val = q.val; omega

/-- Each of the four row windows holds its whole one-row array at every point. -/
theorem rd1 (c : Dev nD) (t : Fin cfg1.N) (q : Fin 128) : iblk1 V c 1 t (ix2 0 q) = V c main_v22 (ix2 0 q) := by
  have e := idx_facts t
  show V c main_v22 (((cfg1.win 1).blk t).view.emb (ix2 0 q)) = V c main_v22 (ix2 0 q)
  refine congrArg (V c main_v22) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

theorem rd2 (c : Dev nD) (t : Fin cfg1.N) (q : Fin 128) : iblk1 V c 2 t (ix2 0 q) = V c main_v26 (ix2 0 q) := by
  have e := idx_facts t
  show V c main_v26 (((cfg1.win 2).blk t).view.emb (ix2 0 q)) = V c main_v26 (ix2 0 q)
  refine congrArg (V c main_v26) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

theorem rd3 (c : Dev nD) (t : Fin cfg1.N) (q : Fin 128) : iblk1 V c 3 t (ix2 0 q) = V c main_v27 (ix2 0 q) := by
  have e := idx_facts t
  show V c main_v27 (((cfg1.win 3).blk t).view.emb (ix2 0 q)) = V c main_v27 (ix2 0 q)
  refine congrArg (V c main_v27) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem rd4 (c : Dev nD) (t : Fin cfg1.N) (q : Fin 128) : iblk1 V c 4 t (ix2 0 q) = V c main_v28 (ix2 0 q) := by
  have e := idx_facts t
  show V c main_v28 (((cfg1.win 4).blk t).view.emb (ix2 0 q)) = V c main_v28 (ix2 0 q)
  refine congrArg (V c main_v28) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- REGION 1's RESULT as one function of the arrays the region finds. -/
def G (c : Dev nD) : S100000x128.Idx → EReal := fun i =>
  bnRelu (fun r q => V c main_v20_0 (ix2 r q)) (fun q => V c main_v22 (ix2 0 q)) (fun q => V c main_v26 (ix2 0 q))
    (fun q => V c main_v27 (ix2 0 q)) (fun q => V c main_v28 (ix2 0 q)) (i 0) (i 1)

/-- Row `p` of the output's block at point `t` is row `10000 t + p` of the result array. -/
theorem emb5 (t : Fin cfg1.N) (p : Fin 10000) (q : Fin 128) :
    ((cfg1.win 5).blk t).view.emb (ix2 p q)
      = ix2 (⟨10000 * t.val + p.val, by have := t_lt t; have := p.isLt; omega⟩ : Fin 100000) q := by
  obtain ⟨-, -, -, -, -, -, -, -, -, -, e0, e1⟩ := idx_facts t
  refine funext fun a => Fin.ext ?_
  match a with
  | ⟨0, _⟩ => show win1_5.index t (0 : Fin 2) * 10000 + 1 * p.val = 10000 * t.val + p.val; omega
  | ⟨1, _⟩ => show win1_5.index t (1 : Fin 2) * 128 + 1 * q.val = q.val; omega

/-- WHAT POINT `t` WRITES BACK is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S10000x128) hz, View.ld_unit_zero (S := S1x128) hz]
  funext y
  obtain ⟨p, q, rfl⟩ : ∃ (p : Fin 10000) (q : Fin 128), y = ix2 p q := ⟨y 0, y 1, eq_ix2 y⟩
  show k1_pay1 (iblk1 V c 2 t) (iblk1 V c 0 t) (iblk1 V c 1 t) (iblk1 V c 3 t) (iblk1 V c 4 t) (ix2 p q)
    = G V c (((cfg1.win 5).blk t).view.emb (ix2 p q))
  rw [emb5 t p q]
  refine (pay_apply (iblk1 V c 2 t) (iblk1 V c 1 t) (iblk1 V c 3 t) (iblk1 V c 4 t) (iblk1 V c 0 t) p q).trans ?_
  show _ = bnRelu _ _ _ _ _ _ _
  unfold bnRelu
  rw [rd0 V c t p q ⟨10000 * t.val + p.val, by have := t_lt t; have := p.isLt; omega⟩ rfl, rd1 V c t q, rd2 V c t q, rd3 V c t q, rd4 V c t q]

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v29).slice (win1_5.rect t)).set ↔ _
  rw [View.set_slice_whole, Rect.mem_set_unit]
  exact Iff.rfl

/-- Every row is in some point's block: row `r` in block `r / 10000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 10000 < cfg1.N := by rw [show cfg1.N = 10 from N_1]; omega
  refine ⟨⟨(i 0).val / 10000, ht⟩, flush1_5 _, ?_⟩
  rw [mem_blk]
  obtain ⟨-, -, -, -, -, -, -, -, -, -, e0, e1⟩ := idx_facts ⟨(i 0).val / 10000, ht⟩
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, ht⟩ (1 : Fin 2) * 128 ≤ (i 1).val ∧ (i 1).val < win1_5.index ⟨(i 0).val / 10000, ht⟩ (1 : Fin 2) * 128 + 128
    rw [e1]; omega

/-- THE RESULT ARRAY after the region: `G` of the arrays the region finds. -/
theorem final (c : Dev nD) : (dat1 (F := Ideal) V c).arrAt 5 cfg1.N = G V c :=
  (dat1 (F := Ideal) V c).arrAt_eq_of_cover 5 (G V c) (fun t _ => flushed_eq V c t) (cover)

end Cert.KernelIdeal.Region1

end
-- ==== Proof.Region2.lean ====
/-
  Region 2 — the second layer's affine map — read as ONE function of the arrays the region finds. Each of the ten grid
  points takes a tile of 10000 nodes: it multiplies the tile of activations by `W_self`, the tile of neighbourhood means by
  `W_neigh`, adds the two products and the bias row, and writes the tile of the result. Row `p` of point `t`'s tile is node
  `10000 t + p`, the weights and the bias are the same block at every point, and the ten tiles cover the 100000 nodes, so
  the result array holds, at node `r` and feature `q`, `∑ₖ h r k · Ws k q + ∑ₖ a r k · Wn k q + b q`.
-/
import proofs.«175821_j90159953477680_1_alg».proof.Proof.FrameKernelIdealP
import proofs.«175821_j90159953477680_1_alg».proof.Proof.Spec
import proofs.«175821_j90159953477680_1_alg».proof.Proof.LibRowReduceProducts
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value with its identity casts removed: two matrix products into zero, summed, plus the bias row
    broadcast over the block's rows. -/
theorem pay_eq (x0 x1 : Vec Ideal S10000x128 .f32) (x2 x3 : Vec Ideal S128x64 .f32) (x4 : Vec Ideal S1x64 .f32) :
    k2_pay1 x0 x2 x1 x3 x4
      = addf (addf (matmul (φ₁ := .f32) (φ₂ := .f32) dot_S10000x128_S128x64_S10000x64_1_0_0_1_n_n none x0 x2 (constant S10000x64 .f32 0x00000000#32))
                   (matmul (φ₁ := .f32) (φ₂ := .f32) dot_S10000x128_S128x64_S10000x64_1_0_0_1_n_n none x1 x3 (constant S10000x64 .f32 0x00000000#32)))
             (broadcastTo S10000x64 x4 broadcasts_S1x64_S10000x64) := by
  unfold k2_pay1
  simp only [shapeCast_self]

/-- The stored value at row `p` of the block and output feature `q`. -/
theorem pay_apply (x0 x1 : Vec Ideal S10000x128 .f32) (x2 x3 : Vec Ideal S128x64 .f32) (x4 : Vec Ideal S1x64 .f32)
    (p : Fin 10000) (q : Fin 64) :
    k2_pay1 x0 x2 x1 x3 x4 (ix2 p q)
      = (∑ k : Fin 128, x0 (ix2 p k) * x2 (ix2 k q)) + (∑ k : Fin 128, x1 (ix2 p k) * x3 (ix2 k q)) + x4 (ix2 0 q) := by
  rw [pay_eq]
  refine congrArg₂ (· + ·) (congrArg₂ (· + ·) ?_ ?_) ?_
  · exact Cert.LibRowReduceProducts.matmulNN (φ₁ := .f32) (φ₂ := .f32) dot_S10000x128_S128x64_S10000x64_1_0_0_1_n_n rfl rfl rfl rfl rfl rfl none x0 x2 p q
  · exact Cert.LibRowReduceProducts.matmulNN (φ₁ := .f32) (φ₂ := .f32) dot_S10000x128_S128x64_S10000x64_1_0_0_1_n_n rfl rfl rfl rfl rfl rfl none x1 x3 p q
  · exact broadcastTo_1b_ab_apply x4 broadcasts_S1x64_S10000x64 p q

/-- How the printed block index maps move over the grid: the two node-tile windows and the output follow the point, the
    weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block of the first node-tile window is row `10000 t + p` of its array. -/
theorem rd0 (c : Dev nD) (t : Fin cfg2.N) (p : Fin 10000) (k : Fin 128) (R : Fin 100000) (hR : R.val = 10000 * t.val + p.val) :
    iblk2 V c 0 t (ix2 p k) = V c main_v29 (ix2 R k) := by
  obtain ⟨e0, e1, -⟩ := idx_facts t
  show V c main_v29 (((cfg2.win 0).blk t).view.emb (ix2 p k)) = V c main_v29 (ix2 R k)
  refine congrArg (V c main_v29) (funext fun a => Fin.ext ?_)
  match a with
  | ⟨0, _⟩ => show win2_0.index t (0 : Fin 2) * 10000 + 1 * p.val = R.val; omega
  | ⟨1, _⟩ => show win2_0.index t (1 : Fin 2) * 128 + 1 * k.val = k.val; omega

/-- The same for the second node-tile window (the neighbourhood means). -/
theorem rd1 (c : Dev nD) (t : Fin cfg2.N) (p : Fin 10000) (k : Fin 128) (R : Fin 100000) (hR : R.val = 10000 * t.val + p.val) :
    iblk2 V c 1 t (ix2 p k) = V c main_v48 (ix2 R k) := by
  obtain ⟨-, -, e0, e1, -⟩ := idx_facts t
  show V c main_v48 (((cfg2.win 1).blk t).view.emb (ix2 p k)) = V c main_v48 (ix2 R k)
  refine congrArg (V c main_v48) (funext fun a => Fin.ext ?_)
  match a with
  | ⟨0, _⟩ => show win2_1.index t (0 : Fin 2) * 10000 + 1 * p.val = R.val; omega
  | ⟨1, _⟩ => show win2_1.index t (1 : Fin 2) * 128 + 1 * k.val = k.val; omega

/-- The weight windows and the bias window hold their whole arrays at every point. -/
theorem rd2 (c : Dev nD) (t : Fin cfg2.N) (k : Fin 128) (q : Fin 64) : iblk2 V c 2 t (ix2 k q) = V c main_arg8 (ix2 k q) := by
  obtain ⟨-, -, -, -, e0, e1, -⟩ := idx_facts t
  show V c main_arg8 (((cfg2.win 2).blk t).view.emb (ix2 k q)) = V c main_arg8 (ix2 k q)
  refine congrArg (V c main_arg8) (funext fun a => Fin.ext ?_)
  match a with
  | ⟨0, _⟩ => show win2_2.index t (0 : Fin 2) * 128 + 1 * k.val = k.val; omega
  | ⟨1, _⟩ => show win2_2.index t (1 : Fin 2) * 64 + 1 * q.val = q.val; omega

theorem rd3 (c : Dev nD) (t : Fin cfg2.N) (k : Fin 128) (q : Fin 64) : iblk2 V c 3 t (ix2 k q) = V c main_arg9 (ix2 k q) := by
  obtain ⟨-, -, -, -, -, -, e0, e1, -⟩ := idx_facts t
  show V c main_arg9 (((cfg2.win 3).blk t).view.emb (ix2 k q)) = V c main_arg9 (ix2 k q)
  refine congrArg (V c main_arg9) (funext fun a => Fin.ext ?_)
  match a with
  | ⟨0, _⟩ => show win2_3.index t (0 : Fin 2) * 128 + 1 * k.val = k.val; omega
  | ⟨1, _⟩ => show win2_3.index t (1 : Fin 2) * 64 + 1 * q.val = q.val; omega

theorem rd4 (c : Dev nD) (t : Fin cfg2.N) (q : Fin 64) : iblk2 V c 4 t (ix2 0 q) = V c main_v49 (ix2 0 q) := by
  obtain ⟨-, -, -, -, -, -, -, -, e0, e1, -⟩ := idx_facts t
  show V c main_v49 (((cfg2.win 4).blk t).view.emb (ix2 0 q)) = V c main_v49 (ix2 0 q)
  refine congrArg (V c main_v49) (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-- REGION 2's RESULT as one function of the arrays the region finds: the second layer's affine map, node by node. -/
def G (c : Dev nD) : S100000x64.Idx → EReal := fun i =>
  Cert.Spec.lin (fun r k => V c main_v29 (ix2 r k)) (fun r k => V c main_v48 (ix2 r k))
    (fun k q => V c main_arg8 (ix2 k q)) (fun k q => V c main_arg9 (ix2 k q)) (fun q => V c main_v49 (ix2 0 q)) (i 0) (i 1)

theorem t_lt (t : Fin cfg2.N) : t.val < 10 := lt_of_lt_of_eq t.isLt (show cfg2.N = 10 from N_2)

/-- Row `p` of the output's block at point `t` is row `10000 t + p` of the result array. -/
theorem emb5 (t : Fin cfg2.N) (p : Fin 10000) (q : Fin 64) :
    ((cfg2.win 5).blk t).view.emb (ix2 p q)
      = ix2 (⟨10000 * t.val + p.val, by have := t_lt t; have := p.isLt; omega⟩ : Fin 100000) q := by
  obtain ⟨-, -, -, -, -, -, -, -, -, -, e0, e1⟩ := idx_facts t
  refine funext fun a => Fin.ext ?_
  match a with
  | ⟨0, _⟩ => show win2_5.index t (0 : Fin 2) * 10000 + 1 * p.val = 10000 * t.val + p.val; omega
  | ⟨1, _⟩ => show win2_5.index t (1 : Fin 2) * 64 + 1 * q.val = q.val; omega

/-- WHAT POINT `t` WRITES BACK is block `t` of `G`. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x64) hz, View.ld_unit_zero (S := S1x64) hz]
  funext y
  obtain ⟨p, q, rfl⟩ : ∃ (p : Fin 10000) (q : Fin 64), y = ix2 p q := ⟨y 0, y 1, eq_ix2 y⟩
  show k2_pay1 (iblk2 V c 0 t) (iblk2 V c 2 t) (iblk2 V c 1 t) (iblk2 V c 3 t) (iblk2 V c 4 t) (ix2 p q)
    = G V c (((cfg2.win 5).blk t).view.emb (ix2 p q))
  rw [emb5 t p q]
  refine (pay_apply (iblk2 V c 0 t) (iblk2 V c 1 t) (iblk2 V c 2 t) (iblk2 V c 3 t) (iblk2 V c 4 t) p q).trans ?_
  show _ = Cert.Spec.lin _ _ _ _ _ _ _
  unfold Cert.Spec.lin
  refine congrArg₂ (· + ·) (congrArg₂ (· + ·) (Finset.sum_congr rfl fun k _ => ?_) (Finset.sum_congr rfl fun k _ => ?_)) ?_
  · rw [rd0 V c t p k ⟨10000 * t.val + p.val, by have := t_lt t; have := p.isLt; omega⟩ rfl, rd2 V c t k q]
  · rw [rd1 V c t p k ⟨10000 * t.val + p.val, by have := t_lt t; have := p.isLt; omega⟩ rfl, rd3 V c t k q]
  · exact rd4 V c t q

/-- An index of the result array is in point `t`'s block iff each coordinate is in the block's range on its axis. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v50).slice (win2_5.rect t)).set ↔ _
  rw [View.set_slice_whole, Rect.mem_set_unit]
  exact Iff.rfl

/-- Every row is in some point's block: row `r` in block `r / 10000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have ht : (i 0).val / 10000 < cfg2.N := by rw [show cfg2.N = 10 from N_2]; omega
  refine ⟨⟨(i 0).val / 10000, ht⟩, flush2_5 _, ?_⟩
  rw [mem_blk]
  obtain ⟨-, -, -, -, -, -, -, -, -, -, e0, e1⟩ := idx_facts ⟨(i 0).val / 10000, ht⟩
  intro a
  match a with
  | ⟨0, _⟩ =>
    show win2_5.index ⟨(i 0).val / 10000, ht⟩ (0 : Fin 2) * 10000 ≤ (i 0).val ∧ (i 0).val < win2_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win2_5.index ⟨(i 0).val / 10000, ht⟩ (1 : Fin 2) * 64 ≤ (i 1).val ∧ (i 1).val < win2_5.index ⟨(i 0).val / 10000, ht⟩ (1 : Fin 2) * 64 + 64
    rw [e1]; omega

/-- THE RESULT ARRAY after the region: `G` of the arrays the region finds. -/
theorem final (c : Dev nD) : (dat2 (F := Ideal) V c).arrAt 5 cfg2.N = G V c :=
  (dat2 (F := Ideal) V c).arrAt_eq_of_cover 5 (G V c) (fun t _ => flushed_eq V c t) (cover)

/-- The same at a node `r` and an output feature `q`. -/
theorem arr5 (c : Dev nD) (r : Fin 100000) (q : Fin 64) :
    (dat2 (F := Ideal) V c).arrAt 5 cfg2.N (ix2 r q)
      = Cert.Spec.lin (fun r k => V c main_v29 (ix2 r k)) (fun r k => V c main_v48 (ix2 r k))
          (fun k q => V c main_arg8 (ix2 k q)) (fun k q => V c main_arg9 (ix2 k q)) (fun q => V c main_v49 (ix2 0 q)) r q := by
  rw [final]; rfl

end Cert.KernelIdeal.Region2

end
-- ==== Proof.KernelValue.lean ====
/-
  The idealized kernel's result, as a function of the launch memory.

  Region 0 is entered with the node features, their neighbourhood means `meanAgg64`, the first layer's weights and its
  bias as a row; it leaves the pre-activations `Hpre` (the layer's affine map) and their column sums and column sums of
  squares. The host turns the two sums into `meanK = S₁/100000` and `varK = S₂/100000 - meanK²`. Region 1 is entered with
  `Hpre`, these two rows and the scale and shift as rows, and leaves `H1`, the normalised and clipped activations. The host
  forms their neighbourhood means `meanAgg128`, and region 2 leaves the second layer's affine map of `H1` and those means:
  the result.
-/
import proofs.«175821_j90159953477680_1_alg».proof.Proof.FrameKernelIdealP
import proofs.«175821_j90159953477680_1_alg».proof.Proof.Spec
import proofs.«175821_j90159953477680_1_alg».proof.Proof.LibRowReduceProducts
import proofs.«175821_j90159953477680_1_alg».proof.Proof.KernelRun
import proofs.«175821_j90159953477680_1_alg».proof.Proof.Stretch
import proofs.«175821_j90159953477680_1_alg».proof.Proof.Region0
import proofs.«175821_j90159953477680_1_alg».proof.Proof.Region1
import proofs.«175821_j90159953477680_1_alg».proof.Proof.Region2
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Value

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg)

open Cert.KernelIdeal.Stretch

/-! ## The quantities, from the launch memory -/

/-- The node features, the first layer's neighbourhood means, its weights and its bias, by coordinates. -/
def X0 (c : Dev nD) : Fin 100000 → Fin 64 → EReal := fun r k => (m ((c : Thread nD τ).loc main_arg0)) (ix2 r k)
def Agg1 (c : Dev nD) : Fin 100000 → Fin 64 → EReal := fun r k => meanAgg64 (m ((c : Thread nD τ).loc main_arg0)) (m ((c : Thread nD τ).loc main_arg1)) (m ((c : Thread nD τ).loc main_arg2)) (ix2 r k)
def Ws1 (c : Dev nD) : Fin 64 → Fin 128 → EReal := fun k j => (m ((c : Thread nD τ).loc main_arg3)) (ix2 k j)
def Wn1 (c : Dev nD) : Fin 64 → Fin 128 → EReal := fun k j => (m ((c : Thread nD τ).loc main_arg4)) (ix2 k j)
def B1 (c : Dev nD) : Fin 128 → EReal := fun j => (m ((c : Thread nD τ).loc main_arg5)) (ix1 j)

/-- The first layer's pre-activations. -/
def Hpre (c : Dev nD) : Fin 100000 → Fin 128 → EReal := Cert.Spec.lin (X0 m c) (Agg1 m c) (Ws1 m c) (Wn1 m c) (B1 m c)

/-- The kernel's column mean and variance: `S₁/100000` and `S₂/100000 - mean²`. -/
def meanK (c : Dev nD) (q : Fin 128) : EReal := Ideal.div (Cert.Spec.colSum (Hpre m c) q) (Ideal.ofBits .f32 0x47C35000#32)
def varK (c : Dev nD) (q : Fin 128) : EReal :=
  Ideal.div (Cert.Spec.colSumSq (Hpre m c) q) (Ideal.ofBits .f32 0x47C35000#32) - meanK m c q * meanK m c q

/-- The normalised, clipped activations, as an array. -/
def H1 (c : Dev nD) : (⟨S100000x128, .f32⟩ : BufTy).Contents (Elt Ideal) := fun i =>
  Cert.KernelIdeal.Region1.bnRelu (Hpre m c) (meanK m c) (varK m c) (fun q => (m ((c : Thread nD τ).loc main_arg6)) (ix1 q)) (fun q => (m ((c : Thread nD τ).loc main_arg7)) (ix1 q)) (i 0) (i 1)

/-! ## Region 0 at its entry contents -/

theorem H_entry (c : Dev nD) : Cert.KernelIdeal.Region0.H (V1 (F := Ideal) m ρ) c = Hpre m c := by
  unfold Cert.KernelIdeal.Region0.H Hpre
  have e0 : Cert.KernelIdeal.Region0.X (V1 (F := Ideal) m ρ) c = X0 m c := by
    funext r k; show W1 m ρ c (Proc.devRef .tc main_arg0) (ix2 r k) = _; rw [arg0_at1]; rfl
  have e1 : Cert.KernelIdeal.Region0.A (V1 (F := Ideal) m ρ) c = Agg1 m c := by
    funext r k; show W1 m ρ c (Proc.devRef .tc main_v18) (ix2 r k) = _; rw [agg1_eq]; rfl
  have e2 : Cert.KernelIdeal.Region0.Ws (V1 (F := Ideal) m ρ) c = Ws1 m c := by
    funext k j; show W1 m ρ c (Proc.devRef .tc main_arg3) (ix2 k j) = _; rw [arg3_at1]; rfl
  have e3 : Cert.KernelIdeal.Region0.Wn (V1 (F := Ideal) m ρ) c = Wn1 m c := by
    funext k j; show W1 m ρ c (Proc.devRef .tc main_arg4) (ix2 k j) = _; rw [arg4_at1]; rfl
  have e4 : Cert.KernelIdeal.Region0.Bv (V1 (F := Ideal) m ρ) c = B1 m c := by
    funext j; show W1 m ρ c (Proc.devRef .tc main_v19) (ix2 0 j) = _; rw [b1row_eq]
    exact shapeCast_a_1a_apply (m ((c : Thread nD τ).loc main_arg5)) shapeCasts_S128_S1x128 0 j
  rw [e0, e1, e2, e3, e4]

theorem pre_at2 (c : Dev nD) (r : Fin 100000) (j : Fin 128) : W2 (F := Ideal) m ρ c (Proc.devRef .tc main_v20_0) (ix2 r j) = Hpre m c r j := by
  rw [show W2 (F := Ideal) m ρ c (Proc.devRef .tc main_v20_0) = (dat0 (V1 m ρ) c).arrAt 5 cfg0.N from W2_arr m ρ c 5]
  exact (Cert.KernelIdeal.Region0.arr5 (V1 m ρ) c r j).trans (congrFun (congrFun (H_entry m ρ c) r) j)

theorem sum_at2 (c : Dev nD) (j : Fin 128) : W2 (F := Ideal) m ρ c (Proc.devRef .tc main_v20_1) (ix2 0 j) = Cert.Spec.colSum (Hpre m c) j := by
  rw [show W2 (F := Ideal) m ρ c (Proc.devRef .tc main_v20_1) = (dat0 (V1 m ρ) c).arrAt 6 cfg0.N from W2_arr m ρ c 6]
  exact (Cert.KernelIdeal.Region0.arr6 (V1 m ρ) c j).trans (by rw [H_entry])

theorem sumsq_at2 (c : Dev nD) (j : Fin 128) : W2 (F := Ideal) m ρ c (Proc.devRef .tc main_v20_2) (ix2 0 j) = Cert.Spec.colSumSq (Hpre m c) j := by
  rw [show W2 (F := Ideal) m ρ c (Proc.devRef .tc main_v20_2) = (dat0 (V1 m ρ) c).arrAt 7 cfg0.N from W2_arr m ρ c 7]
  exact (Cert.KernelIdeal.Region0.arr7 (V1 m ρ) c j).trans (by rw [H_entry])

/-! ## Region 1 at its entry contents -/

theorem mean_at3 (c : Dev nD) (q : Fin 128) : W3 (F := Ideal) m ρ c (Proc.devRef .tc main_v22) (ix2 0 q) = meanK m c q := by
  rw [mean_eq]
  show Ideal.div (W2 m ρ c (Proc.devRef .tc main_v20_1) (ix2 0 q)) (Ideal.ofBits .f32 0x47C35000#32) = _
  rw [sum_at2]; rfl

theorem var_at3 (c : Dev nD) (q : Fin 128) : W3 (F := Ideal) m ρ c (Proc.devRef .tc main_v26) (ix2 0 q) = varK m c q := by
  have key : ∀ (a b : S1x128.Idx → EReal),
      subf (F := Ideal) (Host.divf (F := Ideal) a (broadcastInDim S1x128 ![] bcast_S_S1x128 (constant (F := Ideal) S_ .f32 0x47C35000#32)))
          (mulf (F := Ideal) b b) (ix2 0 q)
        = Ideal.div (a (ix2 0 q)) (Ideal.ofBits .f32 0x47C35000#32) - b (ix2 0 q) * b (ix2 0 q) := fun a b => rfl
  rw [var_eq]
  refine (key _ _).trans ?_
  rw [sumsq_at2, mean_at3]; rfl

theorem h1_at4 (c : Dev nD) : W4 (F := Ideal) m ρ c (Proc.devRef .tc main_v29) = H1 m c := by
  rw [show W4 (F := Ideal) m ρ c (Proc.devRef .tc main_v29) = (dat1 (V3 m ρ) c).arrAt 5 cfg1.N from W4_arr m ρ c 5,
    Cert.KernelIdeal.Region1.final]
  funext i
  show Cert.KernelIdeal.Region1.bnRelu _ _ _ _ _ (i 0) (i 1) = Cert.KernelIdeal.Region1.bnRelu _ _ _ _ _ (i 0) (i 1)
  have e0 : (fun (r : Fin 100000) (q : Fin 128) => V3 (F := Ideal) m ρ c main_v20_0 (ix2 r q)) = Hpre m c := by
    funext r q; show W3 m ρ c (Proc.devRef .tc main_v20_0) (ix2 r q) = _; rw [h_pass, pre_at2]
  have e1 : (fun (q : Fin 128) => V3 (F := Ideal) m ρ c main_v22 (ix2 0 q)) = meanK m c := funext fun q => mean_at3 m ρ c q
  have e2 : (fun (q : Fin 128) => V3 (F := Ideal) m ρ c main_v26 (ix2 0 q)) = varK m c := funext fun q => var_at3 m ρ c q
  have e3 : (fun (q : Fin 128) => V3 (F := Ideal) m ρ c main_v27 (ix2 0 q)) = fun q => (m ((c : Thread nD τ).loc main_arg6)) (ix1 q) := by
    funext q; show W3 m ρ c (Proc.devRef .tc main_v27) (ix2 0 q) = _; rw [gammarow_eq]
    exact shapeCast_a_1a_apply (m ((c : Thread nD τ).loc main_arg6)) shapeCasts_S128_S1x128 0 q
  have e4 : (fun (q : Fin 128) => V3 (F := Ideal) m ρ c main_v28 (ix2 0 q)) = fun q => (m ((c : Thread nD τ).loc main_arg7)) (ix1 q) := by
    funext q; show W3 m ρ c (Proc.devRef .tc main_v28) (ix2 0 q) = _; rw [betarow_eq]
    exact shapeCast_a_1a_apply (m ((c : Thread nD τ).loc main_arg7)) shapeCasts_S128_S1x128 0 q
  rw [e0, e1, e2, e3, e4]

/-! ## Region 2 at its entry contents: the result -/

/-- THE KERNEL'S RESULT at node `r` and output feature `q`. -/
theorem result_apply (c : Dev nD) (r : Fin 100000) (q : Fin 64) :
    W6 (F := Ideal) m ρ c (Proc.devRef .tc main_v50) (ix2 r q)
      = Cert.Spec.lin (fun r k => H1 m c (ix2 r k))
          (fun r k => meanAgg128 (H1 m c) (m ((c : Thread nD τ).loc main_arg1)) (m ((c : Thread nD τ).loc main_arg2)) (ix2 r k))
          (fun k q => (m ((c : Thread nD τ).loc main_arg8)) (ix2 k q)) (fun k q => (m ((c : Thread nD τ).loc main_arg9)) (ix2 k q))
          (fun q => (m ((c : Thread nD τ).loc main_arg10)) (ix1 q)) r q := by
  rw [Cert.KernelIdeal.Hand.result_eq_arr]
  refine (Cert.KernelIdeal.Region2.arr5 (V5 m ρ) c r q).trans ?_
  have e0 : (fun (r : Fin 100000) (k : Fin 128) => V5 (F := Ideal) m ρ c main_v29 (ix2 r k)) = fun r k => H1 m c (ix2 r k) := by
    funext r k; show W5 m ρ c (Proc.devRef .tc main_v29) (ix2 r k) = _; rw [h1_pass, h1_at4]
  have e1 : (fun (r : Fin 100000) (k : Fin 128) => V5 (F := Ideal) m ρ c main_v48 (ix2 r k))
      = fun r k => meanAgg128 (H1 m c) (m ((c : Thread nD τ).loc main_arg1)) (m ((c : Thread nD τ).loc main_arg2)) (ix2 r k) := by
    funext r k; show W5 m ρ c (Proc.devRef .tc main_v48) (ix2 r k) = _; rw [agg2_eq, h1_at4]
  have e2 : (fun (k : Fin 128) (q : Fin 64) => V5 (F := Ideal) m ρ c main_arg8 (ix2 k q)) = fun k q => (m ((c : Thread nD τ).loc main_arg8)) (ix2 k q) := by
    funext k q; show W5 m ρ c (Proc.devRef .tc main_arg8) (ix2 k q) = _; rw [ws2_eq]
  have e3 : (fun (k : Fin 128) (q : Fin 64) => V5 (F := Ideal) m ρ c main_arg9 (ix2 k q)) = fun k q => (m ((c : Thread nD τ).loc main_arg9)) (ix2 k q) := by
    funext k q; show W5 m ρ c (Proc.devRef .tc main_arg9) (ix2 k q) = _; rw [wn2_eq]
  have e4 : (fun (q : Fin 64) => V5 (F := Ideal) m ρ c main_v49 (ix2 0 q)) = fun q => (m ((c : Thread nD τ).loc main_arg10)) (ix1 q) := by
    funext q; show W5 m ρ c (Proc.devRef .tc main_v49) (ix2 0 q) = _; rw [b2row_eq]
    exact shapeCast_a_1a_apply (m ((c : Thread nD τ).loc main_arg10)) shapeCasts_S64_S1x64 0 q
  rw [e0, e1, e2, e3, e4]

end Cert.KernelIdeal.Value

end
-- ==== Proof.RefRead.lean ====
/- The stages of the reference program's result (the run module's `lin1`, `mean1`, `var1`, `bnrelu`, `lin2`), each read at
   an index at the ideal instance: the affine maps as sums over the contracted coordinate plus the bias, the column mean and
   variance as sums over the rows divided by the row count, the normalisation and rectifier element by element. The two
   mean aggregations are not opened. -/
import proofs.«175821_j90159953477680_1_alg».proof.Proof.RefRun
import Idealize.ShloMosaic.Lib.IdealHost
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Cert.ReferenceIdeal.RefRun Idealize.ShloMosaic Idealize.ShloMosaic.ValueIdx

/-! ## Constants -/

/-- The f32 pattern `0x47C35000` is the real one hundred thousand. -/
theorem ofBits_1e5 : Ideal.ofBits .f32 0x47C35000#32 = ((100000 : ℝ) : EReal) := by
  simp [Ideal.ofBits, Ideal.ieee, -EReal.coe_mul]; norm_num

/-! ## Broadcasts read at an index -/

/-- A vector of 128 laid along every one of the 100000 rows, read at (r, j): the vector at j. -/
theorem bcastRow128 {α : Type} (b : S128.Idx → α) (r : Fin 100000) (j : Fin 128) :
    broadcastInDim S100000x128 ![0, 1] bcast_S1x128_S100000x128_0_1 (broadcastInDim S1x128 ![1] bcast_S128_S1x128_1 b) (ix2 r j)
      = b (ix1 j) :=
  (broadcastInDim_oneRow_apply bcast_S1x128_S100000x128_0_1 _ r j).trans
    (broadcastInDim_apply ![1] bcast_S128_S1x128_1 b (ix2 (0 : Fin 1) j) (ix1 j) (fun a => match a with | ⟨0, _⟩ => rfl))

/-- A vector of 64 laid along every one of the 100000 rows, read at (r, j): the vector at j. -/
theorem bcastRow64 {α : Type} (b : S64.Idx → α) (r : Fin 100000) (j : Fin 64) :
    broadcastInDim S100000x64 ![0, 1] bcast_S1x64_S100000x64_0_1 (broadcastInDim S1x64 ![1] bcast_S64_S1x64_1 b) (ix2 r j)
      = b (ix1 j) :=
  (broadcastInDim_oneRow_apply bcast_S1x64_S100000x64_0_1 _ r j).trans
    (broadcastInDim_apply ![1] bcast_S64_S1x64_1 b (ix2 (0 : Fin 1) j) (ix1 j) (fun a => match a with | ⟨0, _⟩ => rfl))

/-! ## The two matrix products read at an index -/

/-- The left operand's row coordinate at an output index is the output's row. -/
theorem dot1_lhs0 (i : S100000x128.Idx) (q : dot_S100000x64_S64x128_S100000x128_1_0_0_1_n_n.contr.Idx) : (dot_S100000x64_S64x128_S100000x128_1_0_0_1_n_n.lhsIdx i q 0).val = (i 0).val := by
  unfold DotDims.lhsIdx
  rw [dif_neg (show ¬(0 : Fin S100000x64.rank) ∈ dot_S100000x64_S64x128_S100000x128_1_0_0_1_n_n.lhsBatch by decide), dif_pos (show (0 : Fin S100000x64.rank) ∈ dot_S100000x64_S64x128_S100000x128_1_0_0_1_n_n.lhsNonContracting by decide)]
  rfl
/-- The right operand's column coordinate at an output index is the output's column. -/
theorem dot1_rhs1 (i : S100000x128.Idx) (q : dot_S100000x64_S64x128_S100000x128_1_0_0_1_n_n.contr.Idx) : (dot_S100000x64_S64x128_S100000x128_1_0_0_1_n_n.rhsIdx i q 1).val = (i 1).val := by
  unfold DotDims.rhsIdx
  rw [dif_neg (show ¬(1 : Fin S64x128.rank) ∈ dot_S100000x64_S64x128_S100000x128_1_0_0_1_n_n.rhsBatch by decide), dif_pos (show (1 : Fin S64x128.rank) ∈ dot_S100000x64_S64x128_S100000x128_1_0_0_1_n_n.rhsNonContracting by decide)]
  rfl
/-- The 100000 × 64 by 64 × 128 product read at (r, j): the sum over the contracted coordinate of the entries' products. -/
theorem dot1_apply (A : FVec Ideal S100000x64 .f32) (B : FVec Ideal S64x128 .f32) (r : Fin 100000) (j : Fin 128) :
    Host.dotGeneral (F := Ideal) (φ₁ := .f32) (φ₂ := .f32) dot_S100000x64_S64x128_S100000x128_1_0_0_1_n_n none A B (ix2 r j)
      = ∑ k : Fin 64, A (ix2 r k) * B (ix2 k j) := by
  show FloatOps.dotGeneral _ none _ A B (ix2 r j) = _
  rw [Ideal.dotGeneral_apply, ← Equiv.sum_comp (contrEquiv1 dot_S100000x64_S64x128_S100000x128_1_0_0_1_n_n 64 rfl rfl).symm]
  refine Finset.sum_congr rfl fun c _ => ?_
  have hk := contrEquiv1_symm_val dot_S100000x64_S64x128_S100000x128_1_0_0_1_n_n 64 rfl rfl c
  have el : dot_S100000x64_S64x128_S100000x128_1_0_0_1_n_n.lhsIdx (ix2 r j) ((contrEquiv1 dot_S100000x64_S64x128_S100000x128_1_0_0_1_n_n 64 rfl rfl).symm c) = ix2 r c := funext fun a => Fin.ext (by
    match a with
    | ⟨0, _⟩ => exact dot1_lhs0 _ _
    | ⟨1, _⟩ => exact (dot_S100000x64_S64x128_S100000x128_1_0_0_1_n_n.lhsIdx_val_of_single rfl _ _).trans hk)
  have er : dot_S100000x64_S64x128_S100000x128_1_0_0_1_n_n.rhsIdx (ix2 r j) ((contrEquiv1 dot_S100000x64_S64x128_S100000x128_1_0_0_1_n_n 64 rfl rfl).symm c) = ix2 c j := funext fun a => Fin.ext (by
    match a with
    | ⟨0, _⟩ => exact (dot_S100000x64_S64x128_S100000x128_1_0_0_1_n_n.rhsIdx_val_of_single rfl _ _).trans hk
    | ⟨1, _⟩ => exact dot1_rhs1 _ _)
  rw [el, er]

/-- The left operand's row coordinate at an output index is the output's row. -/
theorem dot2_lhs0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- The right operand's column coordinate at an output index is the output's column. -/
theorem dot2_rhs1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl
/-- The 100000 × 128 by 128 × 64 product read at (r, j): the sum over the contracted coordinate of the entries' products. -/
theorem dot2_apply (A : FVec Ideal S100000x128 .f32) (B : FVec Ideal S128x64 .f32) (r : Fin 100000) (j : Fin 64) :
    Host.dotGeneral (F := Ideal) (φ₁ := .f32) (φ₂ := .f32) dot_S100000x128_S128x64_S100000x64_1_0_0_1_n_n none A B (ix2 r j)
      = ∑ k : Fin 128, A (ix2 r k) * B (ix2 k j) := by
  show FloatOps.dotGeneral _ none _ A B (ix2 r j) = _
  rw [Ideal.dotGeneral_apply, ← Equiv.sum_comp (contrEquiv1 dot_S100000x128_S128x64_S100000x64_1_0_0_1_n_n 128 rfl rfl).symm]
  refine Finset.sum_congr rfl fun c _ => ?_
  have hk := contrEquiv1_symm_val dot_S100000x128_S128x64_S100000x64_1_0_0_1_n_n 128 rfl rfl c
  have el : dot_S100000x128_S128x64_S100000x64_1_0_0_1_n_n.lhsIdx (ix2 r j) ((contrEquiv1 dot_S100000x128_S128x64_S100000x64_1_0_0_1_n_n 128 rfl rfl).symm c) = ix2 r c := funext fun a => Fin.ext (by
    match a with
    | ⟨0, _⟩ => exact dot2_lhs0 _ _
    | ⟨1, _⟩ => exact (dot_S100000x128_S128x64_S100000x64_1_0_0_1_n_n.lhsIdx_val_of_single rfl _ _).trans hk)
  have er : dot_S100000x128_S128x64_S100000x64_1_0_0_1_n_n.rhsIdx (ix2 r j) ((contrEquiv1 dot_S100000x128_S128x64_S100000x64_1_0_0_1_n_n 128 rfl rfl).symm c) = ix2 c j := funext fun a => Fin.ext (by
    match a with
    | ⟨0, _⟩ => exact (dot_S100000x128_S128x64_S100000x64_1_0_0_1_n_n.rhsIdx_val_of_single rfl _ _).trans hk
    | ⟨1, _⟩ => exact dot2_rhs1 _ _)
  rw [el, er]

/-! ## The affine maps read at an index -/

/-- The first layer at (r, j): the row of the features against the column of the self weights, plus the row of the
    aggregate against the column of the neighbour weights, plus the bias at j. -/
theorem lin1_apply (x agg : (⟨S100000x64, .f32⟩ : BufTy).Contents (Elt Ideal)) (ws wn : (⟨S64x128, .f32⟩ : BufTy).Contents (Elt Ideal)) (b : (⟨S128, .f32⟩ : BufTy).Contents (Elt Ideal))
    (r : Fin 100000) (j : Fin 128) :
    lin1 x agg ws wn b (ix2 r j)
      = (∑ k : Fin 64, x (ix2 r k) * ws (ix2 k j)) + (∑ k : Fin 64, agg (ix2 r k) * wn (ix2 k j)) + b (ix1 j) := by
  unfold lin1
  rw [addf_apply, addf_apply, dot1_apply, dot1_apply, bcastRow128]

/-- The second layer at (r, j), likewise from width 128 to width 64. -/
theorem lin2_apply (h1 agg : (⟨S100000x128, .f32⟩ : BufTy).Contents (Elt Ideal)) (ws wn : (⟨S128x64, .f32⟩ : BufTy).Contents (Elt Ideal)) (b : (⟨S64, .f32⟩ : BufTy).Contents (Elt Ideal))
    (r : Fin 100000) (j : Fin 64) :
    lin2 h1 agg ws wn b (ix2 r j)
      = (∑ k : Fin 128, h1 (ix2 r k) * ws (ix2 k j)) + (∑ k : Fin 128, agg (ix2 r k) * wn (ix2 k j)) + b (ix1 j) := by
  unfold lin2
  rw [addf_apply, addf_apply, dot2_apply, dot2_apply, bcastRow64]

/-! ## The column sums, the mean and the variance read at an index -/

/-- The host's reciprocal square root at an index is the ideal instance's of the element. -/
theorem hostRsqrt_apply {s : Shape} {φ : FTy} (a : FVec Ideal s φ) (i : s.Idx) : Host.rsqrt a i = Ideal.rsqrt (a i) := rfl

/-- The sum down the rows from zero, read at column j: the sum over the rows of the entries of that column. -/
theorem colSum_apply (h : FVec Ideal S100000x128 .f32) (j : Fin 128) :
    Host.reduceAdd h (constant (F := Ideal) S_ .f32 0x00000000#32) reducesTo_S100000x128_S128_d0 h_S_ (ix1 j) = ∑ r : Fin 100000, h (ix2 r j) := by
  have hR : S100000x128.Reduces [0] S128 := by decide
  rw [hostReduceAdd_apply, Ideal.hostReduceAdd_single reducesTo_S100000x128_S128_d0 hR, constant_apply, Ideal.ofBits_zero_f32, zero_add]
  show (∑ k : Fin 100000, h (hR.lift (ix1 j) k)) = _
  refine Finset.sum_congr rfl fun k _ => congrArg h (funext fun a => Fin.ext ?_)
  match a with
  | ⟨0, _⟩ => rfl
  | ⟨1, _⟩ => rfl

/-- The column mean at j: the column's sum divided by one hundred thousand. -/
theorem mean1_apply (h : (⟨S100000x128, .f32⟩ : BufTy).Contents (Elt Ideal)) (j : Fin 128) :
    mean1 h (ix1 j) = Ideal.div (∑ r : Fin 100000, h (ix2 r j)) ((100000 : ℝ) : EReal) := by
  unfold mean1
  rw [hostDivf_apply, colSum_apply, broadcastInDim_scalar_apply, constant_apply, ofBits_1e5]

/-- The mean the variance function recomputes, laid along the rows and read at (r, j): the column mean at j. -/
theorem meanRow_apply (h : (⟨S100000x128, .f32⟩ : BufTy).Contents (Elt Ideal)) (r : Fin 100000) (j : Fin 128) :
    broadcastInDim S100000x128 ![0, 1] bcast_S1x128_S100000x128_0_1
        (Host.divf
          (broadcastInDim S1x128 ![1] bcast_S128_S1x128_1
            (Host.reduceAdd h (constant (F := Ideal) S_ .f32 0x00000000#32) reducesTo_S100000x128_S128_d0 h_S_))
          (broadcastInDim S1x128 ![] bcast_S_S1x128 (constant (F := Ideal) S_ .f32 0x47C35000#32))) (ix2 r j)
      = mean1 h (ix1 j) := by
  rw [broadcastInDim_oneRow_apply, hostDivf_apply, broadcastInDim_scalar_apply,
    broadcastInDim_apply ![1] bcast_S128_S1x128_1 _ (ix2 (0 : Fin 1) j) (ix1 j) (fun a => match a with | ⟨0, _⟩ => rfl)]
  unfold mean1
  rw [hostDivf_apply, broadcastInDim_scalar_apply]

/-- The same as an equation of arrays: every entry of the laid-out mean is the column mean at its column. -/
theorem meanRow_eq (h : (⟨S100000x128, .f32⟩ : BufTy).Contents (Elt Ideal)) :
    broadcastInDim S100000x128 ![0, 1] bcast_S1x128_S100000x128_0_1
        (Host.divf
          (broadcastInDim S1x128 ![1] bcast_S128_S1x128_1
            (Host.reduceAdd h (constant (F := Ideal) S_ .f32 0x00000000#32) reducesTo_S100000x128_S128_d0 h_S_))
          (broadcastInDim S1x128 ![] bcast_S_S1x128 (constant (F := Ideal) S_ .f32 0x47C35000#32)))
      = fun i => mean1 h (ix1 (i 1)) := by
  funext i
  obtain ⟨r, j, rfl⟩ : ∃ (r : Fin 100000) (j : Fin 128), i = ix2 r j := ⟨i 0, i 1, eq_ix2 i⟩
  exact meanRow_apply h r j

/-- The variance's divisor, one hundred thousand less the zero degrees of freedom removed: one hundred thousand. -/
theorem dof_apply :
    subf (constant (F := Ideal) S_ .f32 0x47C35000#32) (sitofp .f32 (constantI S_ 32 0#32)) ix0 = ((100000 : ℝ) : EReal) := by
  rw [subf_apply, constant_apply, ofBits_1e5, sitofp_apply]
  show ((100000 : ℝ) : EReal) - ((((0#32 : BitVec 32).toInt : ℤ) : ℝ) : EReal) = _
  simp

/-- That divisor is positive: the select keeps the quotient. -/
theorem dofPos_apply :
    cmpf .ogt (subf (constant (F := Ideal) S_ .f32 0x47C35000#32) (sitofp .f32 (constantI S_ 32 0#32))) (constant (F := Ideal) S_ .f32 0x00000000#32) ix0 = 1#1 := by
  rw [cmpf_apply, dof_apply, constant_apply, Ideal.ofBits_zero_f32, Ideal.cmpf_def]
  unfold Ideal.cmp
  simp

/-- The column variance at j: the sum over the rows of the squared deviations from the column mean, divided by one
    hundred thousand. -/
theorem var1_apply (h : (⟨S100000x128, .f32⟩ : BufTy).Contents (Elt Ideal)) (j : Fin 128) :
    var1 h (ix1 j)
      = Ideal.div (∑ r : Fin 100000, (h (ix2 r j) - mean1 h (ix1 j)) * (h (ix2 r j) - mean1 h (ix1 j))) ((100000 : ℝ) : EReal) := by
  unfold var1
  rw [select_apply, broadcastInDim_scalar_apply, dofPos_apply, select_one, hostDivf_apply, colSum_apply,
    broadcastInDim_scalar_apply, dof_apply]
  simp only [mulf_apply, subf_apply]
  rw [meanRow_eq]

/-! ## Normalisation and the rectifier read at an index -/

/-- The normalised, rectified hidden feature at (r, j). -/
theorem bnrelu_apply (h : (⟨S100000x128, .f32⟩ : BufTy).Contents (Elt Ideal)) (mu var gamma beta : (⟨S128, .f32⟩ : BufTy).Contents (Elt Ideal)) (r : Fin 100000) (j : Fin 128) :
    bnrelu h mu var gamma beta (ix2 r j)
      = max ((gamma (ix1 j) * (h (ix2 r j) - mu (ix1 j))) * Ideal.rsqrt (var (ix1 j) + Ideal.ofBits .f32 0x3727C5AC#32)
          + beta (ix1 j)) 0 := by
  unfold bnrelu
  rw [maximumf_apply, addf_apply, mulf_apply, mulf_apply, subf_apply, bcastRow128, bcastRow128, bcastRow128, bcastRow128,
    hostRsqrt_apply, addf_apply, broadcastInDim_scalar_apply, constant_apply, broadcastInDim_scalar_apply, constant_apply,
    Ideal.ofBits_zero_f32]

end Cert.ReferenceIdeal.RefRead

end
-- ==== Proof.Consts.lean ====
/-
  The float constants the two programs spell whose VALUES the proof uses, as the extended reals their patterns denote:
  the divisor `100000.0` of the mean and the variance, `1.0` (the floor under a node's in-degree), zero, and the float infinity
  the finiteness precondition compares against.
-/
import Idealize.ShloMosaic.PureOps.Ideal

noncomputable section

namespace Cert.Consts

open Idealize.ShloMosaic

/-- `100000.0` denotes the real `100000`. -/
theorem ofBits_1e5 : Ideal.ofBits .f32 0x47C35000#32 = ((100000 : ℝ) : EReal) := by
  simp [Ideal.ofBits, Ideal.ieee, -EReal.coe_mul]; norm_num

/-- `1.0` denotes the real `1`. -/
theorem ofBits_one : Ideal.ofBits .f32 0x3F800000#32 = ((1 : ℝ) : EReal) := by
  simp [Ideal.ofBits, Ideal.ieee, -EReal.coe_mul]; norm_num

/-- `+0.0` denotes `0`. -/
theorem ofBits_zero : Ideal.ofBits .f32 0x00000000#32 = 0 := by
  simp [Ideal.ofBits, Ideal.ieee]

/-- The float infinity's pattern denotes `⊤`. -/
theorem ofBits_inf : Ideal.ofBits .f32 0x7F800000#32 = (⊤ : EReal) := by
  simp [Ideal.ofBits, Ideal.ieee]

end Cert.Consts

end
-- ==== Proof.LibVarianceLaw.lean ====
/-
  A general lemma file: the variance law on the extended reals, and the closure facts that let it apply.

  The kernel takes a column's variance as `(∑ h²)/N - ((∑ h)/N)²`; the reference as `(∑ (h - (∑ h)/N)²)/N`. Over the reals
  these are one number: expanding the square, `∑ (h - μ)² = ∑ h² - 2 μ ∑ h + N μ²`, and `∑ h = N μ`. On the extended reals
  the identity FAILS at infinities (`⊤ - ⊤` is junk), so it is stated for columns whose every entry is a real, and the rest
  of this module shows that being a real is kept by the operations that build such a column: sums, products, differences,
  maxima, and a quotient by a real that is at least `1`.
-/
import Idealize.ShloMosaic.PureOps.Ideal

noncomputable section

open scoped BigOperators

namespace Cert.Algebra

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The variance identity over the reals, with the division by `N` written as the product with `1/N`. -/
theorem var_real {n : ℕ} (N : ℝ) (hN : N ≠ 0) (hcard : (n : ℝ) = N) (h : Fin n → ℝ) :
    (∑ r, (h r - (∑ r, h r) * (1 / N)) * (h r - (∑ r, h r) * (1 / N))) * (1 / N)
      = (∑ r, h r * h r) * (1 / N) - ((∑ r, h r) * (1 / N)) * ((∑ r, h r) * (1 / N)) := by
  have hexp : ∀ μ : ℝ, (∑ r, (h r - μ) * (h r - μ)) = (∑ r, h r * h r) - 2 * μ * (∑ r, h r) + (n : ℝ) * (μ * μ) := by
    intro μ
    have : ∀ r, (h r - μ) * (h r - μ) = h r * h r - 2 * μ * h r + μ * μ := fun r => by ring
    simp only [this, Finset.sum_add_distrib, Finset.sum_sub_distrib, ← Finset.mul_sum, Finset.sum_const,
      Finset.card_univ, Fintype.card_fin, nsmul_eq_mul]
    ring
  rw [hexp, hcard]
  field_simp
  ring

/-- An array of extended reals every entry of which is a real. -/
def IsReal {ι : Type*} (v : ι → EReal) : Prop := ∀ i, ∃ x : ℝ, v i = (x : EReal)

theorem isReal_sum {ι κ : Type*} (s : Finset κ) (v : ι → κ → EReal) (h : ∀ k, IsReal (fun i => v i k)) :
    IsReal (fun i => ∑ k ∈ s, v i k) := by
  intro i
  choose x hx using fun k => h k i
  exact ⟨∑ k ∈ s, x k, by rw [coe_sum]; exact Finset.sum_congr rfl fun k _ => hx k⟩

theorem exists_real_add {a b : EReal} (ha : ∃ x : ℝ, a = x) (hb : ∃ y : ℝ, b = y) : ∃ z : ℝ, a + b = z := by
  obtain ⟨x, rfl⟩ := ha; obtain ⟨y, rfl⟩ := hb; exact ⟨x + y, (EReal.coe_add x y).symm⟩

theorem exists_real_mul {a b : EReal} (ha : ∃ x : ℝ, a = x) (hb : ∃ y : ℝ, b = y) : ∃ z : ℝ, a * b = z := by
  obtain ⟨x, rfl⟩ := ha; obtain ⟨y, rfl⟩ := hb; exact ⟨x * y, (EReal.coe_mul x y).symm⟩

theorem exists_real_sum {κ : Type*} (s : Finset κ) (v : κ → EReal) (h : ∀ k, ∃ x : ℝ, v k = x) : ∃ z : ℝ, ∑ k ∈ s, v k = z := by
  choose x hx using h
  exact ⟨∑ k ∈ s, x k, by rw [coe_sum]; exact Finset.sum_congr rfl fun k _ => hx k⟩

theorem exists_real_max {a b : EReal} (ha : ∃ x : ℝ, a = x) (hb : ∃ y : ℝ, b = y) : ∃ z : ℝ, max a b = z := by
  obtain ⟨x, rfl⟩ := ha; obtain ⟨y, rfl⟩ := hb
  rcases le_total (x : EReal) (y : EReal) with h | h
  · exact ⟨y, max_eq_right h⟩
  · exact ⟨x, max_eq_left h⟩

/-- A real divided by the larger of a real and `1` is a real: the divisor is a nonzero real. -/
theorem exists_real_div_max_one {a d : EReal} (ha : ∃ x : ℝ, a = x) (hd : ∃ y : ℝ, d = y) :
    ∃ z : ℝ, Ideal.div a (max d ((1 : ℝ) : EReal)) = z := by
  obtain ⟨x, rfl⟩ := ha; obtain ⟨y, rfl⟩ := hd
  have hm : max (y : EReal) ((1 : ℝ) : EReal) = ((max y 1 : ℝ) : EReal) := by
    rcases le_total y 1 with h | h
    · rw [max_eq_right (EReal.coe_le_coe_iff.mpr h), max_eq_right h]
    · rw [max_eq_left (EReal.coe_le_coe_iff.mpr h), max_eq_left h]
  have hne : (max y 1 : ℝ) ≠ 0 := ne_of_gt (lt_of_lt_of_le one_pos (le_max_right y 1))
  rw [hm, Ideal.div_coe hne]
  exact ⟨x * (1 / max y 1), (EReal.coe_mul _ _).symm⟩

/-- THE LAW: for a column of reals, the centred second moment over `N` is the raw second moment over `N` minus the square of
    the mean — with each division the ideal quotient by the real `N ≠ 0`. -/
theorem var_ereal {n : ℕ} (N : ℝ) (hN : N ≠ 0) (hcard : (n : ℝ) = N) (h : Fin n → EReal) (hr : ∀ r, ∃ x : ℝ, h r = x) :
    Ideal.div (∑ r, (h r - Ideal.div (∑ r, h r) (N : EReal)) * (h r - Ideal.div (∑ r, h r) (N : EReal))) (N : EReal)
      = Ideal.div (∑ r, h r * h r) (N : EReal) - Ideal.div (∑ r, h r) (N : EReal) * Ideal.div (∑ r, h r) (N : EReal) := by
  choose x hx using hr
  have hh : h = fun r => (x r : EReal) := funext hx
  subst hh
  simp only [Ideal.div_coe hN, ← coe_sum, ← EReal.coe_mul, ← EReal.coe_sub]
  exact congrArg _ (var_real N hN hcard x)

end Cert.Algebra

end
-- ==== Proof.AggReal.lean ====
/-
  The neighbourhood mean keeps reals real. A gathered row and a broadcast entry are entries of their operand; a
  scatter-add's entry is the operand's entry plus a finite sum of update entries; the in-degree is such a sum of ones from
  zero, so it is a real, and the divisor `max (degree, 1)` is a real that is at least `1`: the quotient of a real by it is a
  real. So the first layer's neighbourhood means of real node features are reals.
-/
import proofs.«175821_j90159953477680_1_alg».proof.Proof.Stretch
import proofs.«175821_j90159953477680_1_alg».proof.Proof.Consts
import proofs.«175821_j90159953477680_1_alg».proof.Proof.LibVarianceLaw

set_option maxRecDepth 16384

noncomputable section

open scoped BigOperators

namespace Cert.KernelIdeal.AggReal

open Cert.KernelIdeal Cert.KernelIdeal.Gen
open Idealize.ShloMosaic Idealize.ShloMosaic.ValueIdx Cert.Algebra

theorem isReal_broadcastInDim {s t : Shape} (dims : Fin s.rank → Fin t.rank) (h : s.BroadcastsInDim t dims) (v : s.Idx → EReal)
    (hv : IsReal v) : IsReal (broadcastInDim t dims h v) := fun j => hv _

theorem isReal_gather {s si t : Shape} {w : Nat} (d : GatherDims s si t) (x : s.Idx → EReal) (idx : IVec si w) (hx : IsReal x) :
    IsReal (Host.gather d x idx) := fun j => hx _

theorem isReal_scatterAdd {s si u : Shape} {w : Nat} (d : ScatterDims s si u) (x : FVec Ideal s .f32) (idx : IVec si w) (upd : FVec Ideal u .f32)
    (hx : IsReal x) (hu : IsReal upd) : IsReal (Host.scatterAdd (F := Ideal) d x idx upd) := fun i => by
  show ∃ z : ℝ, Ideal.hostScatterAdd d x idx upd i = z
  unfold Ideal.hostScatterAdd
  exact exists_real_add (hx i) (exists_real_sum _ _ hu)

theorem isReal_zero {s : Shape} : IsReal (constant (F := Ideal) s .f32 0x00000000#32) :=
  fun i => ⟨0, Cert.Consts.ofBits_zero.trans EReal.coe_zero.symm⟩

theorem isReal_one {s : Shape} : IsReal (constant (F := Ideal) s .f32 0x3F800000#32) :=
  fun i => ⟨1, Cert.Consts.ofBits_one⟩

/-- A quotient of an array of reals by an array whose every entry is the larger of a real and `1`. -/
theorem isReal_hostDivf {s : Shape} (a b : FVec Ideal s .f32) (ha : IsReal a) (hb : ∀ i, ∃ y : ℝ, b i = max (y : EReal) ((1 : ℝ) : EReal)) :
    IsReal (Host.divf (F := Ideal) a b) := fun i => by
  obtain ⟨y, hy⟩ := hb i
  show ∃ z : ℝ, Ideal.div (a i) (b i) = z
  rw [hy]
  exact exists_real_div_max_one (ha i) ⟨y, rfl⟩

/-- The divisor array's entries: the in-degree floored at `1`, broadcast twice. -/
theorem den_form {u s t : Shape} (dims1 : Fin u.rank → Fin s.rank) (h1 : u.BroadcastsInDim s dims1) (dims2 : Fin s.rank → Fin t.rank)
    (h2 : s.BroadcastsInDim t dims2) (D ones : FVec Ideal u .f32) (hD : IsReal D) (hone : ∀ j, ones j = ((1 : ℝ) : EReal)) :
    ∀ i, ∃ y : ℝ, broadcastInDim t dims2 h2 (broadcastInDim s dims1 h1 (maximumf (F := Ideal) D ones)) i = max (y : EReal) ((1 : ℝ) : EReal) := by
  have key : ∀ j, ∃ y : ℝ, maximumf (F := Ideal) D ones j = max (y : EReal) ((1 : ℝ) : EReal) := fun j => by
    obtain ⟨y, hy⟩ := hD j
    exact ⟨y, by show max (D j) (ones j) = _; rw [hy, hone j]⟩
  exact fun i => key _

/-- The neighbourhood means of an array of reals are reals (width 64). -/
theorem meanAgg64_real (x : (⟨S100000x64, .f32⟩ : BufTy).Contents (Elt Ideal)) (src dst : (⟨S800000, .i32⟩ : BufTy).Contents (Elt Ideal))
    (hx : IsReal x) : IsReal (Cert.KernelIdeal.Stretch.meanAgg64 x src dst) := by
  unfold Cert.KernelIdeal.Stretch.meanAgg64
  refine isReal_hostDivf _ _ (isReal_scatterAdd _ _ _ _ (isReal_broadcastInDim _ _ _ isReal_zero) (isReal_gather _ _ _ hx)) ?_
  exact den_form _ _ _ _ _ _ (isReal_scatterAdd _ _ _ _ (isReal_broadcastInDim _ _ _ isReal_zero) (isReal_broadcastInDim _ _ _ isReal_one))
    (fun j => Cert.Consts.ofBits_one)

end Cert.KernelIdeal.AggReal

end
-- ==== Proof.Finite.lean ====
/-
  The precondition, decoded. `finite_inputs` is the conjunction, over the nine float arguments, of "every entry's absolute
  value is below `+∞`"; at the ideal values an entry with `max x (-x) < ⊤` is neither infinity, so it is a real. Only the
  four arrays the first layer's pre-activations are built from are needed: the node features, the two weight matrices
  of the first layer, and its bias.
-/
import proofs.«175821_j90159953477680_1_alg».proof.Pre_finite_inputs
import proofs.«175821_j90159953477680_1_alg».proof.Proof.Gen.Pre_finite_inputs
import proofs.«175821_j90159953477680_1_alg».proof.Proof.Consts
import proofs.«175821_j90159953477680_1_alg».proof.Proof.LibVarianceLaw
import Idealize.ShloMosaic.Lib.ReduceAll
import Idealize.ShloMosaic.Lib.Affine
import Idealize.ShloMosaic.Lib.ValueIdx

set_option maxRecDepth 16384

noncomputable section

namespace Cert.Finite

open Idealize.ShloMosaic Idealize.ShloMosaic.ValueIdx Cert.Algebra

/-- An extended real whose absolute value compares below `+∞` is a real. -/
theorem real_of_abs_lt_top (x : EReal) (h : Ideal.cmp .olt (max x (-x)) (⊤ : EReal) = 1#1) : ∃ r : ℝ, x = r := by
  have hlt : max x (-x) < ⊤ := by
    by_contra hn
    unfold Ideal.cmp at h
    simp only [hn, decide_false, BitVec.ofBool_false] at h
    exact absurd h (by decide)
  induction x using EReal.rec with
  | bot => simp at hlt
  | coe r => exact ⟨r, rfl⟩
  | top => simp at hlt

instance : Subsingleton Cert.Pre_finite_inputs.S_.Idx := ⟨fun a b => funext fun d => d.elim0⟩

/-- An array every entry of which passes the precondition's comparison is an array of reals. -/
theorem isReal_of_all {s : Shape} (a : FVec Ideal s .f32) (hb : Cert.Pre_finite_inputs.S_.BroadcastsInDim s (![] : Fin 0 → Fin s.rank))
    (hall : ∀ i, cmpf .olt (Host.absf a) (broadcastInDim s ![] hb (constant (F := Ideal) Cert.Pre_finite_inputs.S_ .f32 0x7F800000#32)) i = 1#1) :
    IsReal a := by
  intro i
  have e : Ideal.cmp .olt (max (a i) (-(a i))) (Ideal.ofBits .f32 0x7F800000#32) = 1#1 := hall i
  rw [Cert.Consts.ofBits_inf] at e
  exact real_of_abs_lt_top _ e

open Cert.Pre_finite_inputs in
/-- Under the precondition the node features, the first layer's two weight matrices and its bias are arrays of reals. -/
theorem real_of_pre [Cert.Pre_finite_inputs.Facts] (a0 : FVec Ideal S100000x64 .f32) (a1 a2 : IVec S800000 32) (a3 a4 : FVec Ideal S64x128 .f32)
    (a5 a6 a7 : FVec Ideal S128 .f32) (a8 a9 : FVec Ideal S128x64 .f32) (a10 : FVec Ideal S64 .f32)
    (h : Cert.Pre_finite_inputs.fn (F := Ideal) a0 a1 a2 a3 a4 a5 a6 a7 a8 a9 a10 = fun _ => 1#1) :
    IsReal a0 ∧ IsReal a3 ∧ IsReal a4 ∧ IsReal a5 := by
  have h0 := congrFun h ix0
  dsimp only [Cert.Pre_finite_inputs.fn, Cert.Pre_finite_inputs.fn_part1, Cert.Pre_finite_inputs.fn_part2] at h0
  obtain ⟨h38, -⟩ := IntOp.andi_eq_one.mp h0
  obtain ⟨h33, -⟩ := IntOp.andi_eq_one.mp h38
  obtain ⟨h28, -⟩ := IntOp.andi_eq_one.mp h33
  obtain ⟨h23, -⟩ := IntOp.andi_eq_one.mp h28
  obtain ⟨h18, -⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨isReal_of_all a0 _ (Host.reduce_andi_all _ _ _ _ ix0 h3), isReal_of_all a3 _ (Host.reduce_andi_all _ _ _ _ ix0 h7),
    isReal_of_all a4 _ (Host.reduce_andi_all _ _ _ _ ix0 h12), isReal_of_all a5 _ (Host.reduce_andi_all _ _ _ _ ix0 h17)⟩

end Cert.Finite

end
-- ==== Proof.Bridge.lean ====
/-
  What joins the kernel's and the reference's batch normalisation, over plain index types.

  Both take the column mean as `(∑ h)/100000`. The kernel's variance is `(∑ h²)/100000 - mean²`, the reference's
  `(∑ (h - mean)²)/100000`: one number when the column is real (`Cert.Algebra.var_ereal`, at the programs' own divisor, whose
  pattern denotes the real `100000`, the number of rows). The pre-activations ARE real when the features, the
  neighbourhood means, the weights and the bias are (`lin_real`). After that the two programs scale the centred value in a
  different order — `((h - μ) · s) · γ` against `(γ · (h - μ)) · s` — which is commutativity and associativity of the product
  on the extended reals, where both hold without any finiteness.
-/
import proofs.«175821_j90159953477680_1_alg».proof.Proof.Spec
import proofs.«175821_j90159953477680_1_alg».proof.Proof.LibVarianceLaw
import proofs.«175821_j90159953477680_1_alg».proof.Proof.Consts

noncomputable section

open scoped BigOperators

namespace Cert.Bridge

open Idealize.ShloMosaic Cert.Algebra

/-- A layer's affine map of real features, real neighbourhood means, real weights and a real bias is real. -/
theorem lin_real {N K M : ℕ} (x a : Fin N → Fin K → EReal) (ws wn : Fin K → Fin M → EReal) (b : Fin M → EReal)
    (hx : ∀ r k, ∃ y : ℝ, x r k = y) (ha : ∀ r k, ∃ y : ℝ, a r k = y) (hws : ∀ k j, ∃ y : ℝ, ws k j = y)
    (hwn : ∀ k j, ∃ y : ℝ, wn k j = y) (hb : ∀ j, ∃ y : ℝ, b j = y) (r : Fin N) (j : Fin M) :
    ∃ y : ℝ, Cert.Spec.lin x a ws wn b r j = y := by
  unfold Cert.Spec.lin
  exact exists_real_add (exists_real_add (exists_real_sum _ _ fun k => exists_real_mul (hx r k) (hws k j))
    (exists_real_sum _ _ fun k => exists_real_mul (ha r k) (hwn k j))) (hb j)

/-- The variance law at the programs' divisor `100000.0`, for a real column of 100000 rows. -/
theorem var_1e5 (h : Fin 100000 → EReal) (hr : ∀ r, ∃ x : ℝ, h r = x) :
    Ideal.div (∑ r, (h r - Ideal.div (∑ r, h r) (Ideal.ofBits .f32 0x47C35000#32)) * (h r - Ideal.div (∑ r, h r) (Ideal.ofBits .f32 0x47C35000#32)))
        (Ideal.ofBits .f32 0x47C35000#32)
      = Ideal.div (∑ r, h r * h r) (Ideal.ofBits .f32 0x47C35000#32)
          - Ideal.div (∑ r, h r) (Ideal.ofBits .f32 0x47C35000#32) * Ideal.div (∑ r, h r) (Ideal.ofBits .f32 0x47C35000#32) := by
  rw [Cert.Consts.ofBits_1e5]
  exact var_ereal (n := 100000) 100000 (by norm_num) (by norm_num) h hr

/-- The two orders in which the programs scale the centred value. -/
theorem scale_comm (d s g : EReal) : d * s * g = g * d * s := by
  rw [mul_comm g d, mul_right_comm]

end Cert.Bridge

end
-- ==== Proof.Final.lean ====
/-
  The two idealized programs end with equal results.

  The reference's result is its second layer's affine map of the activations `h₁` and their neighbourhood means; so is the
  kernel's (`Cert.KernelIdeal.Value.result_apply`), and the two programs form the neighbourhood means by the same host
  operations (`meanAgg64_eq`, `meanAgg128_eq`: one function). So it is enough that the two activation arrays are one array.
  Both are the normalised, scaled, shifted and clipped pre-activations; the pre-activations agree entry by entry (the same
  affine map of the same arrays), the means agree (the same sum over the same divisor), and the variances agree by the
  variance law, which applies because under the precondition the pre-activations are real: the features, the weights and
  the bias are finite by hypothesis, and the neighbourhood means of real features are real. The two orders of scaling are
  one product.
-/
import proofs.«175821_j90159953477680_1_alg».proof.Defs
import proofs.«175821_j90159953477680_1_alg».proof.Proof.KernelValue
import proofs.«175821_j90159953477680_1_alg».proof.Proof.RefRead
import proofs.«175821_j90159953477680_1_alg».proof.Proof.AggReal
import proofs.«175821_j90159953477680_1_alg».proof.Proof.Finite
import proofs.«175821_j90159953477680_1_alg».proof.Proof.Bridge

set_option maxRecDepth 16384

noncomputable section

open scoped BigOperators

namespace Cert.Final

open Idealize.ShloMosaic Idealize.ShloMosaic.ValueIdx Idealize.ShloMosaic.TcCoe Idealize.SL.Sem
open Cert.KernelIdeal.Value Cert.Algebra

open Cert.ReferenceIdeal.RefRun Cert.ReferenceIdeal.RefRead

variable (m : (ℓ : Loc Cert.KernelIdeal.nD Cert.KernelIdeal.τ Cert.KernelIdeal.sig) → Buf (Elt Ideal) ℓ)

/-- The two programs' first neighbourhood mean is one function: the same host operations in the same order. -/
theorem meanAgg64_eq : Cert.ReferenceIdeal.RefRun.meanAgg64 = Cert.KernelIdeal.Stretch.meanAgg64 := rfl

/-- The same for the second. -/
theorem meanAgg128_eq : Cert.ReferenceIdeal.RefRun.meanAgg128 = Cert.KernelIdeal.Stretch.meanAgg128 := rfl

/-- The reference's pre-activations, from the kernel's launch memory. -/
abbrev hR (c : Dev Cert.KernelIdeal.nD) := lin1 (m ((c : Thread Cert.KernelIdeal.nD Cert.KernelIdeal.τ).loc Cert.KernelIdeal.main_arg0)) (Cert.ReferenceIdeal.RefRun.meanAgg64 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))

/-- The reference's activations, from the kernel's launch memory. -/
abbrev h1R (c : Dev Cert.KernelIdeal.nD) := bnrelu (hR m c) (mean1 (hR m c)) (var1 (hR m c)) (m ((c : Thread Cert.KernelIdeal.nD Cert.KernelIdeal.τ).loc Cert.KernelIdeal.main_arg6)) (m ((c : Thread Cert.KernelIdeal.nD Cert.KernelIdeal.τ).loc Cert.KernelIdeal.main_arg7))

/-- The pre-activations agree entry by entry: the same affine map of the same arrays. -/
theorem pre_eq (c : Dev Cert.KernelIdeal.nD) (r : Fin 100000) (q : Fin 128) : hR m c (ix2 r q) = Hpre m c r q := by
  rw [hR, lin1_apply, meanAgg64_eq]
  rfl

/-- Under the precondition the pre-activations are real. -/
theorem pre_real [hP : Cert.Pre_finite_inputs.Facts] (c : Dev Cert.KernelIdeal.nD)
    (hpre : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) = fun _ => 1#1)
    (r : Fin 100000) (q : Fin 128) : ∃ y : ℝ, Hpre m c r q = y := by
  obtain ⟨h0, h3, h4, h5⟩ := Cert.Finite.real_of_pre _ _ _ _ _ _ _ _ _ _ _ hpre
  exact Cert.Bridge.lin_real (X0 m c) (Agg1 m c) (Ws1 m c) (Wn1 m c) (B1 m c)
    (fun r k => h0 (ix2 r k)) (fun r k => Cert.KernelIdeal.AggReal.meanAgg64_real _ _ _ h0 (ix2 r k))
    (fun k j => h3 (ix2 k j)) (fun k j => h4 (ix2 k j)) (fun j => h5 (ix1 j)) r q

/-- The means agree: the same column sum over the same divisor. -/
theorem mean_eq (c : Dev Cert.KernelIdeal.nD) (q : Fin 128) : mean1 (hR m c) (ix1 q) = meanK m c q := by
  rw [mean1_apply]
  unfold meanK Cert.Spec.colSum
  rw [Cert.Consts.ofBits_1e5]
  exact congrArg (fun s => Ideal.div s ((100000 : ℝ) : EReal)) (Finset.sum_congr rfl fun r _ => pre_eq m c r q)

/-- The variances agree, by the variance law on the real column. -/
theorem var_eq [hP : Cert.Pre_finite_inputs.Facts] (c : Dev Cert.KernelIdeal.nD)
    (hpre : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) = fun _ => 1#1)
    (q : Fin 128) : var1 (hR m c) (ix1 q) = varK m c q := by
  rw [var1_apply, mean_eq]
  have e : (∑ r : Fin 100000, (hR m c (ix2 r q) - meanK m c q) * (hR m c (ix2 r q) - meanK m c q))
      = ∑ r : Fin 100000, (Hpre m c r q - meanK m c q) * (Hpre m c r q - meanK m c q) :=
    Finset.sum_congr rfl fun r _ => by rw [pre_eq]
  rw [e]
  unfold varK meanK Cert.Spec.colSumSq Cert.Spec.colSum
  rw [Cert.Consts.ofBits_1e5]
  exact var_ereal (n := 100000) 100000 (by norm_num) (by norm_num) (fun r => Hpre m c r q) (fun r => pre_real m c hpre r q)

/-- The activations are one array. -/
theorem act_eq [hP : Cert.Pre_finite_inputs.Facts] (c : Dev Cert.KernelIdeal.nD)
    (hpre : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) = fun _ => 1#1) :
    h1R m c = H1 m c := by
  funext i
  obtain ⟨r, q, rfl⟩ : ∃ (r : Fin 100000) (q : Fin 128), i = ix2 r q := ⟨i 0, i 1, eq_ix2 i⟩
  rw [h1R, bnrelu_apply, pre_eq, mean_eq, var_eq m c hpre]
  show _ = Cert.KernelIdeal.Region1.bnRelu (Hpre m c) (meanK m c) (varK m c) _ _ r q
  unfold Cert.KernelIdeal.Region1.bnRelu
  have hs := Cert.Bridge.scale_comm (Hpre m c r q - meanK m c q) (Ideal.rsqrt (varK m c q + Ideal.ofBits .f32 0x3727C5AC#32))
    ((m ((c : Thread Cert.KernelIdeal.nD Cert.KernelIdeal.τ).loc Cert.KernelIdeal.main_arg6)) (ix1 q))
  show _ = max ((Hpre m c r q - meanK m c q) * Ideal.rsqrt (varK m c q + Ideal.ofBits .f32 0x3727C5AC#32) * (m ((c : Thread Cert.KernelIdeal.nD Cert.KernelIdeal.τ).loc Cert.KernelIdeal.main_arg6)) (ix1 q)
      + (m ((c : Thread Cert.KernelIdeal.nD Cert.KernelIdeal.τ).loc Cert.KernelIdeal.main_arg7)) (ix1 q)) (Ideal.ofBits .f32 0x00000000#32)
  rw [hs, Cert.Consts.ofBits_zero]

/-- THE RESULTS ARE EQUAL: the reference's result, computed from the kernel's launch memory, is what the kernel's last
    region leaves in the result array. -/
theorem out_eq [hP : Cert.Pre_finite_inputs.Facts] (ρ : Dev Cert.KernelIdeal.nD → PrngReg) (c : Dev Cert.KernelIdeal.nD)
    (hpre : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) = fun _ => 1#1) :
    out (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))
      = Cert.KernelIdeal.GenP.W6 (F := Ideal) m ρ c (Proc.devRef .tc Cert.KernelIdeal.main_v50) := by
  funext i
  obtain ⟨r, q, rfl⟩ : ∃ (r : Fin 100000) (q : Fin 64), i = ix2 r q := ⟨i 0, i 1, eq_ix2 i⟩
  rw [result_apply m ρ c r q]
  show lin2 (h1R m c) (Cert.ReferenceIdeal.RefRun.meanAgg128 (h1R m c) (m ((c : Thread Cert.KernelIdeal.nD Cert.KernelIdeal.τ).loc Cert.KernelIdeal.main_arg1)) (m ((c : Thread Cert.KernelIdeal.nD Cert.KernelIdeal.τ).loc Cert.KernelIdeal.main_arg2))) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (ix2 r q) = _
  rw [lin2_apply, meanAgg128_eq, act_eq m c hpre]
  rfl

end Cert.Final

end
-- ==== Proof.lean ====
/-
  The proof of `Cert.Claim`: a two-layer mean-aggregation graph network on 100000 nodes and 800000 edges, as three kernel
  regions among host operations, against its plain reference.

  THE FRAMES. Each kernel program's frame is the several-region launch over its generated segments (the frame modules
  imported here). The reference is a host program with no kernel; its frame is its run (`RefRun.run`) with the result
  dropped.

  PRESERVES. The idealization rewrote no operation, so there is nothing to state.

  ALGEBRAIC. At the ideal values both programs compute, for every node, `h = x·Wₛ + mean_in(x)·Wₙ + b`, normalise each
  column of `h` by its mean and variance over the nodes, scale, shift and clip at zero, and apply a second such layer. They
  differ in how the column variance is taken — the kernel accumulates `∑h` and `∑h²` tile by tile and forms
  `∑h²/N - (∑h/N)²`; the reference forms `∑(h - ∑h/N)²/N` — and in the order of two products. The variance law joins the
  first (it needs `h` real, which the finiteness precondition gives through the neighbourhood mean); the product is
  commutative and associative. The kernel's result is read off its run region by region (`KernelValue`), the reference's
  off its run stage by stage (`RefRead`), and `Final.out_eq` is their equality.
-/
import proofs.«175821_j90159953477680_1_alg».proof.Defs
import proofs.«175821_j90159953477680_1_alg».proof.Proof.FrameKernelP
import proofs.«175821_j90159953477680_1_alg».proof.Proof.FrameKernelIdealP
import proofs.«175821_j90159953477680_1_alg».proof.Proof.KernelRun
import proofs.«175821_j90159953477680_1_alg».proof.Proof.RefRun
import proofs.«175821_j90159953477680_1_alg».proof.Proof.Final
import proofs.«175821_j90159953477680_1_alg».proof.Proof.Gen.Kernel
import proofs.«175821_j90159953477680_1_alg».proof.Proof.Gen.KernelIdeal
import proofs.«175821_j90159953477680_1_alg».proof.Proof.Gen.ReferenceIdeal
import proofs.«175821_j90159953477680_1_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- From memories agreeing on the arguments both idealized programs run, and end with the same result array: what the
    kernel's last region leaves, which is the reference's composed term of the arguments (`Final.out_eq`). -/
theorem algebraic : Cert.algebraic_KernelIdeal_ReferenceIdeal := by
  intro m ρ m' ρ' hpre hagree
  refine ⟨fun c => Cert.KernelIdeal.GenP.W6 (F := Ideal) m ρ c (Proc.devRef .tc Cert.KernelIdeal.main_v50),
    Cert.KernelIdeal.Hand.run_value (F := Ideal) m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5, a6, a7, a8, a9, a10⟩ := hagree c
  rw [a0, a1, a2, a3, a4, a5, a6, a7, a8, a9, a10]
  exact Cert.Final.out_eq m ρ c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
